-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x64x4096x4x4 : Shape := ⟨5, ![3, 64, 4096, 4, 4]⟩
abbrev S3x64x1024x8x8 : Shape := ⟨5, ![3, 64, 1024, 8, 8]⟩
abbrev S3x64x256x16x16 : Shape := ⟨5, ![3, 64, 256, 16, 16]⟩
abbrev S_ : Shape := ⟨0, ![]⟩

class Facts : Prop where
  bcast_S_S3x64x4096x4x4 : S_.BroadcastsInDim S3x64x4096x4x4 (![] : Fin 0 → Fin S3x64x4096x4x4.rank)
  reducesTo_S3x64x4096x4x4_S_d0_1_2_3_4 : S3x64x4096x4x4.ReducesTo [0, 1, 2, 3, 4] S_
  h_S_ : 0 < S_.numel
  bcast_S_S3x64x1024x8x8 : S_.BroadcastsInDim S3x64x1024x8x8 (![] : Fin 0 → Fin S3x64x1024x8x8.rank)
  reducesTo_S3x64x1024x8x8_S_d0_1_2_3_4 : S3x64x1024x8x8.ReducesTo [0, 1, 2, 3, 4] S_
  bcast_S_S3x64x256x16x16 : S_.BroadcastsInDim S3x64x256x16x16 (![] : Fin 0 → Fin S3x64x256x16x16.rank)
  reducesTo_S3x64x256x16x16_S_d0_1_2_3_4 : S3x64x256x16x16.ReducesTo [0, 1, 2, 3, 4] S_

variable [Facts]

def fn {F : FTy → Type} [FloatOps F] (main_arg0 : FVec F S3x64x4096x4x4 .f32) (main_arg1 : FVec F S3x64x1024x8x8 .f32) (main_arg2 : FVec F S3x64x256x16x16 .f32) : IVec S_ 1 :=
  let main_v0 : FVec F S3x64x4096x4x4 .f32 := Host.absf main_arg0
  let main_cst : FVec F S_ .f32 := constant S_ .f32 0x7F800000#32
  let main_v1 : FVec F S3x64x4096x4x4 .f32 := broadcastInDim S3x64x4096x4x4 ![] bcast_S_S3x64x4096x4x4 main_cst
  let main_v2 : IVec S3x64x4096x4x4 1 := cmpf .olt main_v0 main_v1
  let main_c : IVec S_ 1 := constantI S_ 1 1#1
  let main_v3 : IVec S_ 1 := (fun x v => Host.reduce IntOp.andi x v reducesTo_S3x64x4096x4x4_S_d0_1_2_3_4 h_S_) main_v2 main_c
  let main_v4 : FVec F S3x64x1024x8x8 .f32 := Host.absf main_arg1
  let main_cst_0 : FVec F S_ .f32 := constant S_ .f32 0x7F800000#32
  let main_v5 : FVec F S3x64x1024x8x8 .f32 := broadcastInDim S3x64x1024x8x8 ![] bcast_S_S3x64x1024x8x8 main_cst_0
  let main_v6 : IVec S3x64x1024x8x8 1 := cmpf .olt main_v4 main_v5
  let main_c_1 : IVec S_ 1 := constantI S_ 1 1#1
  let main_v7 : IVec S_ 1 := (fun x v => Host.reduce IntOp.andi x v reducesTo_S3x64x1024x8x8_S_d0_1_2_3_4 h_S_) main_v6 main_c_1
  let main_v8 : IVec S_ 1 := andi main_v3 main_v7
  let main_v9 : FVec F S3x64x256x16x16 .f32 := Host.absf main_arg2
  let main_cst_2 : FVec F S_ .f32 := constant S_ .f32 0x7F800000#32
  let main_v10 : FVec F S3x64x256x16x16 .f32 := broadcastInDim S3x64x256x16x16 ![] bcast_S_S3x64x256x16x16 main_cst_2
  let main_v11 : IVec S3x64x256x16x16 1 := cmpf .olt main_v9 main_v10
  let main_c_3 : IVec S_ 1 := constantI S_ 1 1#1
  let main_v12 : IVec S_ 1 := (fun x v => Host.reduce IntOp.andi x v reducesTo_S3x64x256x16x16_S_d0_1_2_3_4 h_S_) main_v11 main_c_3
  let main_v13 : IVec S_ 1 := andi main_v8 main_v12
  main_v13
-- ==== Kernel.lean ====
abbrev S3x64x4096x4x4 : Shape := ⟨5, ![3, 64, 4096, 4, 4]⟩
abbrev S3x64x1024x8x8 : Shape := ⟨5, ![3, 64, 1024, 8, 8]⟩
abbrev S3x64x256x16x16 : Shape := ⟨5, ![3, 64, 256, 16, 16]⟩
abbrev S3x64x4096x16 : Shape := ⟨4, ![3, 64, 4096, 16]⟩
abbrev S2x3x64 : Shape := ⟨3, ![2, 3, 64]⟩
abbrev S3x64x128x16 : Shape := ⟨4, ![3, 64, 128, 16]⟩
abbrev S1x3x64 : Shape := ⟨3, ![1, 3, 64]⟩
abbrev S3x64x128 : Shape := ⟨3, ![3, 64, 128]⟩
abbrev S3x64 : Shape := ⟨2, ![3, 64]⟩
abbrev S_ : Shape := ⟨0, ![]⟩
abbrev S3x64x1024x64 : Shape := ⟨4, ![3, 64, 1024, 64]⟩
abbrev S3x64x128x64 : Shape := ⟨4, ![3, 64, 128, 64]⟩
abbrev S3x64x256x256 : Shape := ⟨4, ![3, 64, 256, 256]⟩
abbrev S3x64x32x256 : Shape := ⟨4, ![3, 64, 32, 256]⟩
abbrev S3x64x32 : Shape := ⟨3, ![3, 64, 32]⟩

abbrev nBuf : Space → Nat
  | .hbm => 24
  | .vmem => 12
  | .smem => 0
  | _ => 0

abbrev bufTy : (tb : Table) → Fin (tcTables nBuf tb) → BufTy
  | .hbm, ⟨0, _⟩ => ⟨S3x64x4096x4x4, .f32⟩
  | .hbm, ⟨1, _⟩ => ⟨S3x64x1024x8x8, .f32⟩
  | .hbm, ⟨2, _⟩ => ⟨S3x64x256x16x16, .f32⟩
  | .hbm, ⟨3, _⟩ => ⟨S3x64x4096x16, .f32⟩
  | .hbm, ⟨4, _⟩ => ⟨S2x3x64, .f32⟩
  | .hbm, ⟨5, _⟩ => ⟨S_, .f32⟩
  | .hbm, ⟨6, _⟩ => ⟨S3x64, .f32⟩
  | .hbm, ⟨7, _⟩ => ⟨S_, .f32⟩
  | .hbm, ⟨8, _⟩ => ⟨S3x64, .f32⟩
  | .hbm, ⟨9, _⟩ => ⟨S3x64, .f32⟩
  | .hbm, ⟨10, _⟩ => ⟨S3x64x1024x64, .f32⟩
  | .hbm, ⟨11, _⟩ => ⟨S2x3x64, .f32⟩
  | .hbm, ⟨12, _⟩ => ⟨S_, .f32⟩
  | .hbm, ⟨13, _⟩ => ⟨S3x64, .f32⟩
  | .hbm, ⟨14, _⟩ => ⟨S_, .f32⟩
  | .hbm, ⟨15, _⟩ => ⟨S3x64, .f32⟩
  | .hbm, ⟨16, _⟩ => ⟨S3x64, .f32⟩
  | .hbm, ⟨17, _⟩ => ⟨S3x64x256x256, .f32⟩
  | .hbm, ⟨18, _⟩ => ⟨S2x3x64, .f32⟩
  | .hbm, ⟨19, _⟩ => ⟨S_, .f32⟩
  | .hbm, ⟨20, _⟩ => ⟨S3x64, .f32⟩
  | .hbm, ⟨21, _⟩ => ⟨S_, .f32⟩
  | .hbm, ⟨22, _⟩ => ⟨S3x64, .f32⟩
  | .hbm, ⟨23, _⟩ => ⟨S3x64, .f32⟩
  | .local _ .vmem, ⟨0, _⟩ => ⟨S3x64x128x16, .f32⟩
  | .local _ .vmem, ⟨1, _⟩ => ⟨S3x64x128x16, .f32⟩
  | .local _ .vmem, ⟨2, _⟩ => ⟨S1x3x64, .f32⟩
  | .local _ .vmem, ⟨3, _⟩ => ⟨S1x3x64, .f32⟩
  | .local _ .vmem, ⟨4, _⟩ => ⟨S3x64x128x64, .f32⟩
  | .local _ .vmem, ⟨5, _⟩ => ⟨S3x64x128x64, .f32⟩
  | .local _ .vmem, ⟨6, _⟩ => ⟨S1x3x64, .f32⟩
  | .local _ .vmem, ⟨7, _⟩ => ⟨S1x3x64, .f32⟩
  | .local _ .vmem, ⟨8, _⟩ => ⟨S3x64x32x256, .f32⟩
  | .local _ .vmem, ⟨9, _⟩ => ⟨S3x64x32x256, .f32⟩
  | .local _ .vmem, ⟨10, _⟩ => ⟨S1x3x64, .f32⟩
  | .local _ .vmem, ⟨11, _⟩ => ⟨S1x3x64, .f32⟩
  | _, _ => ⟨S3x64x4096x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 4], ![false, false]⟩

def cc1_transform_0 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x64x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S3x64x32x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

class Facts₀ : Prop where
  shapeCasts_S3x64x4096x4x4_S3x64x4096x16 : S3x64x4096x4x4.ShapeCasts S3x64x4096x16
  inb_S1x3x64_S1x3x64_0_0_0 : ∀ a, (![0, 0, 0] : Fin 3 → Nat) a + S1x3x64.size a ≤ S1x3x64.size a
  h_S1x3x64 : 0 < S1x3x64.numel
  inb_S3x64x128x16_S3x64x128x16_0_0_0_0 : ∀ a, (![0, 0, 0, 0] : Fin 4 → Nat) a + S3x64x128x16.size a ≤ S3x64x128x16.size a
  h_S3x64x128x16 : 0 < S3x64x128x16.numel
  shapeCasts_S3x64x128x16_S3x64x128x16 : S3x64x128x16.ShapeCasts S3x64x128x16
  reduces_S3x64x128x16_S3x64x128 : S3x64x128x16.Reduces [3] S3x64x128
  natLt_1_32 : 1 < 32
  reduces_S3x64x128_S3x64 : S3x64x128.Reduces [2] S3x64
  shapeCasts_S1x3x64_S1x3x64 : S1x3x64.ShapeCasts S1x3x64
  shapeCasts_S3x64_S1x3x64 : S3x64.ShapeCasts S1x3x64
  reducesTo_S2x3x64_S3x64_d0 : S2x3x64.ReducesTo [0] S3x64
  h_S_ : 0 < S_.numel
  bcast_S_S3x64 : S_.BroadcastsInDim S3x64 (![] : Fin 0 → Fin S3x64.rank)
  shapeCasts_S3x64x1024x8x8_S3x64x1024x64 : S3x64x1024x8x8.ShapeCasts S3x64x1024x64
  inb_S3x64x128x64_S3x64x128x64_0_0_0_0 : ∀ a, (![0, 0, 0, 0] : Fin 4 → Nat) a + S3x64x128x64.size a ≤ S3x64x128x64.size a
  h_S3x64x128x64 : 0 < S3x64x128x64.numel
  shapeCasts_S3x64x128x64_S3x64x128x64 : S3x64x128x64.ShapeCasts S3x64x128x64
  reduces_S3x64x128x64_S3x64x128 : S3x64x128x64.Reduces [3] S3x64x128
  shapeCasts_S3x64x256x16x16_S3x64x256x256 : S3x64x256x16x16.ShapeCasts S3x64x256x256
  inb_S3x64x32x256_S3x64x32x256_0_0_0_0 : ∀ a, (![0, 0, 0, 0] : Fin 4 → Nat) a + S3x64x32x256.size a ≤ S3x64x32x256.size a
  h_S3x64x32x256 : 0 < S3x64x32x256.numel
  shapeCasts_S3x64x32x256_S3x64x32x256 : S3x64x32x256.ShapeCasts S3x64x32x256
  reduces_S3x64x32x256_S3x64x32 : S3x64x32x256.Reduces [3] S3x64x32
  reduces_S3x64x32_S3x64 : S3x64x32.Reduces [2] S3x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x128x16.size a ≤ S3x64x4096x16.size a
  hwx0_0 : ∀ i : grid0.Coords, EltTy.bits .f32 = 32 ∨ (Rect.block (s := S3x64x4096x16) S3x64x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x64.size a ≤ S2x3x64.size a
  hwx0_1 : ∀ i : grid0.Coords, EltTy.bits .f32 = 32 ∨ (Rect.block (s := S2x3x64) S1x3x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x64x128x64.size a ≤ S3x64x1024x64.size a
  hwx1_0 : ∀ i : grid1.Coords, EltTy.bits .f32 = 32 ∨ (Rect.block (s := S3x64x1024x64) S3x64x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x64.size a ≤ S2x3x64.size a
  hwx1_1 : ∀ i : grid1.Coords, EltTy.bits .f32 = 32 ∨ (Rect.block (s := S2x3x64) S1x3x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x64x32x256.size a ≤ S3x64x256x256.size a
  hwx2_0 : ∀ i : grid2.Coords, EltTy.bits .f32 = 32 ∨ (Rect.block (s := S3x64x256x256) S3x64x32x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x3x64.size a ≤ S2x3x64.size a
  hwx2_1 : ∀ i : grid2.Coords, EltTy.bits .f32 = 32 ∨ (Rect.block (s := S2x3x64) S1x3x64.size (cc2_transform_1 i) (hinb2_1 i)).WholeWords (EltTy.packing .f32)

variable [Facts₀]

abbrev win0_0 : Pipeline.Window sig grid0 :=
  Pipeline.Window.ofSpec (Memref.whole main_v0) S3x64x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S3x64x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x3x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v10) S3x64x32x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x3x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S3x64x4096x4x4 : Shape := ⟨5, ![3, 64, 4096, 4, 4]⟩
abbrev S3x64x1024x8x8 : Shape := ⟨5, ![3, 64, 1024, 8, 8]⟩
abbrev S3x64x256x16x16 : Shape := ⟨5, ![3, 64, 256, 16, 16]⟩
abbrev S_ : Shape := ⟨0, ![]⟩
abbrev S3x64x4096 : Shape := ⟨3, ![3, 64, 4096]⟩
abbrev S3x64 : Shape := ⟨2, ![3, 64]⟩
abbrev S3x64x1024 : Shape := ⟨3, ![3, 64, 1024]⟩
abbrev S3x64x256 : Shape := ⟨3, ![3, 64, 256]⟩

abbrev nBuf : Space → Nat
  | .hbm => 45
  | .vmem => 0
  | .smem => 0
  | _ => 0

abbrev bufTy : (tb : Table) → Fin (tcTables nBuf tb) → BufTy
  | .hbm, ⟨0, _⟩ => ⟨S3x64x4096x4x4, .f32⟩
  | .hbm, ⟨1, _⟩ => ⟨S3x64x1024x8x8, .f32⟩
  | .hbm, ⟨2, _⟩ => ⟨S3x64x256x16x16, .f32⟩
  | .hbm, ⟨3, _⟩ => ⟨S_, .f32⟩
  | .hbm, ⟨4, _⟩ => ⟨S3x64x4096, .f32⟩
  | .hbm, ⟨5, _⟩ => ⟨S_, .f32⟩
  | .hbm, ⟨6, _⟩ => ⟨S3x64x4096, .f32⟩
  | .hbm, ⟨7, _⟩ => ⟨S3x64x4096, .f32⟩
  | .hbm, ⟨8, _⟩ => ⟨S_, .f32⟩
  | .hbm, ⟨9, _⟩ => ⟨S3x64x4096, .f32⟩
  | .hbm, ⟨10, _⟩ => ⟨S3x64x4096, .i1⟩
  | .hbm, ⟨11, _⟩ => ⟨S3x64x4096, .f32⟩
  | .hbm, ⟨12, _⟩ => ⟨S_, .f32⟩
  | .hbm, ⟨13, _⟩ => ⟨S3x64, .f32⟩
  | .hbm, ⟨14, _⟩ => ⟨S_, .f32⟩
  | .hbm, ⟨15, _⟩ => ⟨S3x64, .f32⟩
  | .hbm, ⟨16, _⟩ => ⟨S3x64, .f32⟩
  | .hbm, ⟨17, _⟩ => ⟨S_, .f32⟩
  | .hbm, ⟨18, _⟩ => ⟨S3x64x1024, .f32⟩
  | .hbm, ⟨19, _⟩ => ⟨S_, .f32⟩
  | .hbm, ⟨20, _⟩ => ⟨S3x64x1024, .f32⟩
  | .hbm, ⟨21, _⟩ => ⟨S3x64x1024, .f32⟩
  | .hbm, ⟨22, _⟩ => ⟨S_, .f32⟩
  | .hbm, ⟨23, _⟩ => ⟨S3x64x1024, .f32⟩
  | .hbm, ⟨24, _⟩ => ⟨S3x64x1024, .i1⟩
  | .hbm, ⟨25, _⟩ => ⟨S3x64x1024, .f32⟩
  | .hbm, ⟨26, _⟩ => ⟨S_, .f32⟩
  | .hbm, ⟨27, _⟩ => ⟨S3x64, .f32⟩
  | .hbm, ⟨28, _⟩ => ⟨S_, .f32⟩
  | .hbm, ⟨29, _⟩ => ⟨S3x64, .f32⟩
  | .hbm, ⟨30, _⟩ => ⟨S3x64, .f32⟩
  | .hbm, ⟨31, _⟩ => ⟨S_, .f32⟩
  | .hbm, ⟨32, _⟩ => ⟨S3x64x256, .f32⟩
  | .hbm, ⟨33, _⟩ => ⟨S_, .f32⟩
  | .hbm, ⟨34, _⟩ => ⟨S3x64x256, .f32⟩
  | .hbm, ⟨35, _⟩ => ⟨S3x64x256, .f32⟩
  | .hbm, ⟨36, _⟩ => ⟨S_, .f32⟩
  | .hbm, ⟨37, _⟩ => ⟨S3x64x256, .f32⟩
  | .hbm, ⟨38, _⟩ => ⟨S3x64x256, .i1⟩
  | .hbm, ⟨39, _⟩ => ⟨S3x64x256, .f32⟩
  | .hbm, ⟨40, _⟩ => ⟨S_, .f32⟩
  | .hbm, ⟨41, _⟩ => ⟨S3x64, .f32⟩
  | .hbm, ⟨42, _⟩ => ⟨S_, .f32⟩
  | .hbm, ⟨43, _⟩ => ⟨S3x64, .f32⟩
  | .hbm, ⟨44, _⟩ => ⟨S3x64, .f32⟩
  | _, _ => ⟨S3x64x4096x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_cst_9 : Ref sig .tc := ⟨.hbm, 31, rfl⟩
abbrev main_v18 : Ref sig .tc := ⟨.hbm, 32, rfl⟩
abbrev main_cst_10 : Ref sig .tc := ⟨.hbm, 33, rfl⟩
abbrev main_v19 : Ref sig .tc := ⟨.hbm, 34, rfl⟩
abbrev main_v20 : Ref sig .tc := ⟨.hbm, 35, rfl⟩
abbrev main_cst_11 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_12 : Ref sig .tc := ⟨.hbm, 40, rfl⟩
abbrev main_v24 : Ref sig .tc := ⟨.hbm, 41, rfl⟩
abbrev main_cst_13 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S3x64x4096x4x4_S3x64x4096_d3_4 : S3x64x4096x4x4.ReducesTo [3, 4] S3x64x4096
  h_S_ : 0 < S_.numel
  bcast_S_S3x64x4096 : S_.BroadcastsInDim S3x64x4096 (![] : Fin 0 → Fin S3x64x4096.rank)
  reducesTo_S3x64x4096_S3x64_d2 : S3x64x4096.ReducesTo [2] S3x64
  bcast_S_S3x64 : S_.BroadcastsInDim S3x64 (![] : Fin 0 → Fin S3x64.rank)
  reducesTo_S3x64x1024x8x8_S3x64x1024_d3_4 : S3x64x1024x8x8.ReducesTo [3, 4] S3x64x1024
  bcast_S_S3x64x1024 : S_.BroadcastsInDim S3x64x1024 (![] : Fin 0 → Fin S3x64x1024.rank)
  reducesTo_S3x64x1024_S3x64_d2 : S3x64x1024.ReducesTo [2] S3x64
  reducesTo_S3x64x256x16x16_S3x64x256_d3_4 : S3x64x256x16x16.ReducesTo [3, 4] S3x64x256
  bcast_S_S3x64x256 : S_.BroadcastsInDim S3x64x256 (![] : Fin 0 → Fin S3x64x256.rank)
  reducesTo_S3x64x256_S3x64_d2 : S3x64x256.ReducesTo [2] S3x64

variable [Facts₀]

class Facts : Prop extends Facts₀ where

variable [Facts]
-- ==== Proof.KRun.lean ====
/-
  The idealized kernel program's run, with its three results kept.

  @main is seven segments: a reshape of the first argument, the first pallas_call, a stretch of host
  operations (the sum of the call's two partial-count rows, the division by the number of patches, the
  reshape of the next argument), the second call, a like stretch, the third call, and the last sum and
  division. The generated frame certificate follows the buffer contents through these segments as a fold
  `W0 … W7` from the launch memory and proves that every weakly fair execution terminates with every
  unscoped buffer at `W7`; it then keeps only the arguments. Here the same launch is read at the three
  result buffers as well: each ends at `W7` of its reference.
-/
import proofs.«111001_j31885837205970_2_alg».proof.Defs
import proofs.«111001_j31885837205970_2_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last
    boundary's contents `W7` and the arguments as launched. -/
theorem results : θ_run defs (onTc (τ := τ) (main (F := F))) ⟨m, fun _ => 0, ρ⟩ (fun r => ∀ c : Dev nD,
      r.2.mem ((c.tc : Thread nD τ).loc main_v4) = W7 m ρ c (Proc.devRef .tc main_v4)
      ∧ r.2.mem ((c.tc : Thread nD τ).loc main_v9) = W7 m ρ c (Proc.devRef .tc main_v9)
      ∧ r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v4 (by decide)),
       h c _ (mem_uc main_v9 (by decide)),
       h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Run

end
-- ==== Proof.KWalk.lean ====
/-
  The last boundary's contents at the three results, and the regions' input arrays, read back through @main.

  Each result is written by one stretch of host operations — the two partial-count rows the pallas_call before it
  left are added, and the sum is divided by the number of patches — and by nothing after it; the pallas_call's
  output array at the stretch's entry is what the pipeline's write-backs leave (`Dat.arrAt` at the last point).
  Each pallas_call's input array is the reshape of its argument (the last two axes merged), and no earlier
  segment writes the argument.
-/
import proofs.«111001_j31885837205970_2_alg».proof.Defs
import proofs.«111001_j31885837205970_2_alg».proof.Proof.Gen.KernelIdeal.Frame
import Idealize.ShloMosaic.Lib.StableHlo.Run

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]

/-- The tail every result shares: the two rows of a pallas_call's output added from zero, the sum divided by the
    patch count `P` (a float word). -/
def meanOf (P : BitVec 32) (out : FVec F S2x3x64 .f32) : FVec F S3x64 .f32 :=
  Host.divf (Host.reduceAdd out (constant (F := F) S_ .f32 0x00000000#32) reducesTo_S2x3x64_S3x64_d0 h_S_)
    (broadcastInDim S3x64 ![] bcast_S_S3x64 (constant (F := F) S_ .f32 P))

variable (m : (ℓ : Loc nD τ sig) → Buf (Elt F) ℓ) (ρ : Dev nD → PrngReg)

/-- The third result: the last stretch's tail of the third call's output array. -/
theorem res2 (c : Dev nD) :
    W7 m ρ c (Proc.devRef .tc main_v14) = meanOf 0x43800000#32 ((dat2 (V5 m ρ) c).arrAt 1 cfg2.N) := by
  show StableHlo.after hostOps3 (W6 m ρ c) (Proc.devRef .tc main_v14) = _
  after_results
  rw [show W6 m ρ c (Proc.devRef .tc main_v11) = _ from W6_arr m ρ c 1]
  rfl

/-- The second result: untouched by the last stretch and by the third call, it is the third stretch's tail of the
    second call's output array. -/
theorem res1 (c : Dev nD) :
    W7 m ρ c (Proc.devRef .tc main_v9) = meanOf 0x44800000#32 ((dat1 (V3 m ρ) c).arrAt 1 cfg1.N) := by
  have e7 : W7 m ρ c (Proc.devRef .tc main_v9) = W6 m ρ c (Proc.devRef .tc main_v9) := by
    show StableHlo.after hostOps3 (W6 m ρ c) (Proc.devRef .tc main_v9) = _
    after_results
  rw [e7, W6_of_ne m ρ c main_v9 (by decide)]
  show StableHlo.after hostOps2 (W4 m ρ c) (Proc.devRef .tc main_v9) = _
  after_results
  rw [show W4 m ρ c (Proc.devRef .tc main_v6) = _ from W4_arr m ρ c 1]
  rfl

/-- The first result: the second stretch's tail of the first call's output array, untouched afterwards. -/
theorem res0 (c : Dev nD) :
    W7 m ρ c (Proc.devRef .tc main_v4) = meanOf 0x45800000#32 ((dat0 (V1 m ρ) c).arrAt 1 cfg0.N) := by
  have e7 : W7 m ρ c (Proc.devRef .tc main_v4) = W6 m ρ c (Proc.devRef .tc main_v4) := by
    show StableHlo.after hostOps3 (W6 m ρ c) (Proc.devRef .tc main_v4) = _
    after_results
  have e5 : W5 m ρ c (Proc.devRef .tc main_v4) = W4 m ρ c (Proc.devRef .tc main_v4) := by
    show StableHlo.after hostOps2 (W4 m ρ c) (Proc.devRef .tc main_v4) = _
    after_results
  rw [e7, W6_of_ne m ρ c main_v4 (by decide), e5, W4_of_ne m ρ c main_v4 (by decide)]
  show StableHlo.after hostOps1 (W2 m ρ c) (Proc.devRef .tc main_v4) = _
  after_results
  rw [show W2 m ρ c (Proc.devRef .tc main_v1) = _ from W2_arr m ρ c 1]
  rfl

/-- The first call's input array is the first argument with its last two axes merged. -/
theorem in0 (c : Dev nD) : (V1 m ρ c main_v0 : FVec F S3x64x4096x16 .f32)
    = shapeCast S3x64x4096x16 (m ((c : Thread nD τ).loc main_arg0)) shapeCasts_S3x64x4096x4x4_S3x64x4096x16 := by
  show StableHlo.after hostOps0 (W0 m ρ c) (Proc.devRef .tc main_v0) = _
  after_results
  rfl

/-- The second call's input array is the second argument with its last two axes merged. -/
theorem in1 (c : Dev nD) : (V3 m ρ c main_v5 : FVec F S3x64x1024x64 .f32)
    = shapeCast S3x64x1024x64 (m ((c : Thread nD τ).loc main_arg1)) shapeCasts_S3x64x1024x8x8_S3x64x1024x64 := by
  show StableHlo.after hostOps1 (W2 m ρ c) (Proc.devRef .tc main_v5) = _
  after_results
  rw [W2_of_ne m ρ c main_arg1 (by decide)]
  show (fun i => shapeCast S3x64x1024x64 (StableHlo.after hostOps0 (W0 m ρ c) (Proc.devRef .tc main_arg1)) _ i) = _
  after_results

/-- The third call's input array is the third argument with its last two axes merged. -/
theorem in2 (c : Dev nD) : (V5 m ρ c main_v10 : FVec F S3x64x256x256 .f32)
    = shapeCast S3x64x256x256 (m ((c : Thread nD τ).loc main_arg2)) shapeCasts_S3x64x256x16x16_S3x64x256x256 := by
  show StableHlo.after hostOps2 (W4 m ρ c) (Proc.devRef .tc main_v10) = _
  after_results
  rw [W4_of_ne m ρ c main_arg2 (by decide)]
  show (fun i => shapeCast S3x64x256x256 (StableHlo.after hostOps1 (W2 m ρ c) (Proc.devRef .tc main_arg2)) _ i) = _
  after_results
  rw [W2_of_ne m ρ c main_arg2 (by decide)]
  show (fun i => shapeCast S3x64x256x256 (StableHlo.after hostOps0 (W0 m ρ c) (Proc.devRef .tc main_arg2)) _ i) = _
  after_results

end Cert.KernelIdeal.Walk

end
-- ==== Proof.Spec.lean ====
/-
  The mathematics both programs compute, free of either program.

  A patch is OCCUPIED when the sum `s` of its box's entries, scaled by the reciprocal of the box's area, reaches the
  threshold: `hit w s` is the indicator (1 or 0, as an extended real) of `θ ≤ s · 2^(-k)`, the scale given by its float
  word `w`. The kernel scales by the product with `2^(-k)` and reads the comparison's bit signed after widening it;
  the reference scales by the quotient by `2^k` and reads the bit unsigned. On the extended reals the product with
  `1/n` IS the quotient by `n` for a nonzero real `n` (at the infinities too), and a bit widened and read signed is the
  bit read unsigned: the two indicators are one function (`hit_eq_div`).

  The counts. The kernel adds the indicators of a chunk of patches at each grid point into a row that it resets at the
  first point of each group of `nI` points, and the host adds the rows; the reference adds all indicators at once.
  Sums over the extended reals re-group freely (addition is commutative and associative there, infinities included):
  `sum_range_mul` splits a sum over `a · b` consecutive numbers into `a` sums of `b`; `acc_row` is the closed form of an
  accumulator reset at a group's first point; `rows_total` puts the rows back together.
-/
import Idealize.ShloMosaic.PureOps.Ideal
import Idealize.ShloMosaic.PureOps.Ideal.Laws
import Idealize.ShloMosaic.Lib.ValueIdx

noncomputable section

namespace Cert.Perc

open Idealize.ShloMosaic Finset

/-! ## The float words -/

/-- The word of `16.0` denotes the real 16, that of `0.0625` the real 1/16. -/
theorem ofBits_16 : Ideal.ofBits .f32 0x41800000#32 = ((16 : ℝ) : EReal) := by
  simp [Ideal.ofBits, Ideal.ieee, -EReal.coe_mul]; norm_num
theorem ofBits_inv16 : Ideal.ofBits .f32 0x3D800000#32 = ((1 / 16 : ℝ) : EReal) := by
  simp [Ideal.ofBits, Ideal.ieee, -EReal.coe_mul]; norm_num
/-- The word of `64.0` denotes the real 64, that of `0.015625` the real 1/64. -/
theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num
/-- The word of `256.0` denotes the real 256, that of `0.00390625` the real 1/256. -/
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num

/-- The product with the reciprocal's word is the quotient by the area's word, on every extended real. -/
theorem scale16 (s : EReal) : s * Ideal.ofBits .f32 0x3D800000#32 = Ideal.div s (Ideal.ofBits .f32 0x41800000#32) := by
  rw [ofBits_16, ofBits_inv16, Ideal.div_coe (by norm_num : (16 : ℝ) ≠ 0)]
theorem scale64 (s : EReal) : s * Ideal.ofBits .f32 0x3C800000#32 = Ideal.div s (Ideal.ofBits .f32 0x42800000#32) := by
  rw [ofBits_64, ofBits_inv64, Ideal.div_coe (by norm_num : (64 : ℝ) ≠ 0)]
theorem scale256 (s : EReal) : s * Ideal.ofBits .f32 0x3B800000#32 = Ideal.div s (Ideal.ofBits .f32 0x43800000#32) := by
  rw [ofBits_256, ofBits_inv256, Ideal.div_coe (by norm_num : (256 : ℝ) ≠ 0)]

/-! ## The indicator -/

/-- The occupancy indicator as the kernel spells it: the comparison's bit of `θ ≤ s · (the scale word)`, widened to a
    32-bit word and read signed. -/
def hit (w : BitVec 32) (s : EReal) : EReal :=
  ((((Ideal.cmp .oge (s * Ideal.ofBits .f32 w) (Ideal.ofBits .f32 0x3F17BE77#32)).setWidth 32).toInt : ℝ) : EReal)

/-- A bit widened to a word and read signed is the bit read unsigned. -/
theorem toInt_setWidth_bit' : ∀ b : BitVec 1, (b.setWidth 32).toInt = (b.toNat : ℤ) := by decide

/-- The same indicator as the reference spells it: the bit of `θ ≤ s / (the area word)` read unsigned — given that the
    product with the scale word is the quotient by the area word. -/
theorem hit_eq_div (w d : BitVec 32) (hs : ∀ s : EReal, s * Ideal.ofBits .f32 w = Ideal.div s (Ideal.ofBits .f32 d))
    (s : EReal) :
    hit w s = ((((Ideal.cmp .oge (Ideal.div s (Ideal.ofBits .f32 d)) (Ideal.ofBits .f32 0x3F17BE77#32)).toNat : ℝ)) : EReal) := by
  unfold hit
  rw [hs s, toInt_setWidth_bit']
  norm_cast

/-! ## Re-grouping sums -/

variable {M : Type} [AddCommMonoid M]

/-- A sum over `a · b` consecutive numbers is `a` sums of `b`. -/
theorem sum_range_mul (g : ℕ → M) (a b : ℕ) :
    ∑ n ∈ range (a * b), g n = ∑ i ∈ range a, ∑ j ∈ range b, g (i * b + j) := by
  induction a with
  | zero => simp
  | succ a ih =>
    rw [Nat.succ_mul, sum_range_add, ih, sum_range_succ]

/-- An accumulator `acc` over the points `o · nI + i` of one group, reset to `z + p` at the group's first point and
    increased by `p` at each later one, holds `z` plus the sum of `p` over the group's points so far. -/
theorem acc_row (acc p : ℕ → M) (z : M) (o nI : ℕ)
    (hA : acc (o * nI) = z + p (o * nI))
    (hB : ∀ i, i + 1 < nI → acc (o * nI + (i + 1)) = acc (o * nI + i) + p (o * nI + (i + 1))) :
    ∀ i, i < nI → acc (o * nI + i) = z + ∑ k ∈ range (i + 1), p (o * nI + k) := by
  intro i
  induction i with
  | zero => intro _; simpa using hA
  | succ i ih =>
    intro h
    rw [hB i h, ih (Nat.lt_of_succ_lt h), sum_range_succ _ (i + 1), add_assoc]

/-- The rows put back together: `nO` rows, each the sum over its `nI` points of the point's sum over `nP` consecutive
    numbers, add up to the sum over all `nO · nI · nP` numbers. -/
theorem rows_total (g : ℕ → M) (nO nI nP : ℕ) :
    ∑ o ∈ range nO, ∑ k ∈ range nI, ∑ j ∈ range nP, g ((o * nI + k) * nP + j) = ∑ n ∈ range (nO * nI * nP), g n := by
  rw [sum_range_mul g (nO * nI) nP, sum_range_mul (fun t => ∑ j ∈ range nP, g (t * nP + j)) nO nI]

/-! ## Patches, points, rows and the count, over a [3, 64, P, bb] array -/

section Patches

open Idealize.ShloMosaic.ValueIdx

variable {P bb : ℕ}

/-- Patch `n` of colour `c'` and batch entry `B` is occupied: the indicator of its box's sum (the `bb` entries of the
    array's last axis); `0` past the last patch. -/
def q (w : BitVec 32) (X : (⟨4, ![3, 64, P, bb]⟩ : Shape).Idx → EReal) (c' : Fin 3) (B : Fin 64) (n : ℕ) : EReal :=
  if h : n < P then hit w (∑ k : Fin bb, X (ix4 c' B ⟨n, h⟩ k)) else 0

/-- What grid point `t` adds: the occupied patches among its `nP` consecutive ones. -/
def pt (w : BitVec 32) (X : (⟨4, ![3, 64, P, bb]⟩ : Shape).Idx → EReal) (nP : ℕ) (c' : Fin 3) (B : Fin 64) (t : ℕ) : EReal :=
  ∑ p ∈ range nP, q w X c' B (t * nP + p)

/-- Row `o` of a pallas_call's output: the zero it is reset to plus what its `nI` points add. -/
def rowAt (w : BitVec 32) (X : (⟨4, ![3, 64, P, bb]⟩ : Shape).Idx → EReal) (nI nP : ℕ) (o : ℕ) (c' : Fin 3) (B : Fin 64) : EReal :=
  Ideal.ofBits .f32 0x00000000#32 + ∑ k ∈ range nI, pt w X nP c' B (o * nI + k)

/-- The number of occupied patches. -/
def cnt (w : BitVec 32) (X : (⟨4, ![3, 64, P, bb]⟩ : Shape).Idx → EReal) (c' : Fin 3) (B : Fin 64) : EReal :=
  ∑ n ∈ range P, q w X c' B n

/-- The rows added from zero are the count. -/
theorem rows_cnt (w : BitVec 32) (X : (⟨4, ![3, 64, P, bb]⟩ : Shape).Idx → EReal) (nO nI nP : ℕ) (h : nO * nI * nP = P)
    (c' : Fin 3) (B : Fin 64) :
    Ideal.ofBits .f32 0x00000000#32 + ∑ o ∈ range nO, rowAt w X nI nP o c' B = cnt w X c' B := by
  unfold rowAt pt cnt
  simp only [Ideal.ofBits_zero_f32, zero_add]
  rw [rows_total, h]

end Patches

end Cert.Perc

end
-- ==== Proof.KReg0.lean ====
/-
  The first pallas_call's output array, as one function of its input array.

  The call walks 32 grid points `t = o · 16 + i` (`o < 2`, `i < 16`). At point `t` its input block is rows `128 t … 128 t + 127` of the
  patch axis of the input array `X` : [3, 64, 4096, 16], and its output block is row `o` of the output array [2, 3, 64], which
  stays in its staging buffer while `o` does not change and is written back after the group's last point. The body
  adds, entry by entry, the number of occupied patches of its block to that row — after resetting the row to zero at
  the group's first point (`i = 0`). So after point `o · 16 + i` the row holds zero plus what the points `o · 16 … o · 16 + i`
  add (induction on `i`: `row_acc`), the write-back after point `o · 16 + 15` writes the whole row `o`, and the two rows
  cover the array: `final`. The host's sum of the two rows from zero is then the count over all 4096 patches (`count`).
-/
import proofs.«111001_j31885837205970_2_alg».proof.Defs
import proofs.«111001_j31885837205970_2_alg».proof.Proof.Gen.KernelIdeal.Frame
import proofs.«111001_j31885837205970_2_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)
open Cert.Perc

/-! ## What each case of the body leaves in the row's staging buffer -/

section Body

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a group: the row it finds, `xo`, plus the block's counts — the body's one store, whose loads read
    the two whole buffers. -/
theorem out_B (c : Dev nD) (i : grid0.Coords) (a1 : Memref sig .tc .vmem S3x64x128x16 .f32) (h1 : a1.IsWhole)
    (a2 : Memref sig .tc .vmem S1x3x64 .f32) (h2 : a2.IsWhole) (hc : ¬cond0_0 i) (x : Vec F S3x64x128x16 .f32) (xo : Vec F S1x3x64 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz3]
  simp only [View.readAt_eq_ld, h1.read_unread, h2.read_unread, View.ld_unit_zero (S := S3x64x128x16) hz4,
    View.ld_unit_zero (S := S1x3x64) hz3]

/-- A group's first point: the body stores the zero row, reads it back, and leaves it plus the block's counts. -/
theorem out_A (c : Dev nD) (i : grid0.Coords) (a1 : Memref sig .tc .vmem S3x64x128x16 .f32) (h1 : a1.IsWhole)
    (a2 : Memref sig .tc .vmem S1x3x64 .f32) (h2 : a2.IsWhole) (hc : cond0_0 i) (x : Vec F S3x64x128x16 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x3x64) hz3, View.readCov_unit_zero (S := S1x3x64) _ hz3]
  simp only [View.readAt_eq_ld, h1.read_unread, View.ld_unit_zero (S := S3x64x128x16) hz4]

end Body

/-! ## The store's payload at an entry -/

/-- The index a box's entry `k` of patch `p` has, reached through the two sums' inserted coordinates. -/
theorem lift23 (c' : Fin 3) (B : Fin 64) (p : Fin 128) (k : Fin 16) :
    reduces_S3x64x128x16_S3x64x128.lift (reduces_S3x64x128_S3x64.lift (ix2 c' B) p) k = ix4 c' B p k :=
  funext fun a => Fin.ext (by match a with | ⟨0, _⟩ => rfl | ⟨1, _⟩ => rfl | ⟨2, _⟩ => rfl | ⟨3, _⟩ => rfl)

/-- At entry (c', B) the payload is the row's entry plus the number of the block's 128 patches whose box sum, scaled,
    reaches the threshold: the two lane sums read as sums over their axes, the rest entry by entry. -/
theorem pay2_apply (x : FVec Ideal S3x64x128x16 .f32) (y : FVec Ideal S1x3x64 .f32) (u : Fin 1) (c' : Fin 3) (B : Fin 64) :
    k0_pay2 (F := Ideal) x y (ix3 u c' B)
      = y (ix3 u c' B) + ∑ p : Fin 128, hit 0x3D800000#32 (∑ k : Fin 16, x (ix4 c' B p k)) := by
  unfold k0_pay2
  simp only [shapeCast_self]
  show y (ix3 u c' B) + _ = _
  refine congrArg (y (ix3 u c' B) + ·) ?_
  refine (shapeCast_ab_1ab_apply _ shapeCasts_S3x64_S1x3x64 u c' B).trans ?_
  refine (Ideal.multiReduction_add_single _ 0x00000000#32 reduces_S3x64x128_S3x64 (.inl rfl) rfl (ix2 c' B)).trans ?_
  refine Finset.sum_congr rfl fun (p : Fin 128) _ => ?_
  show hit 0x3D800000#32 (multiReduction (F := Ideal) .add [3] S3x64x128 x 0x00000000#32 reduces_S3x64x128x16_S3x64x128 (.inl rfl) rfl
    (reduces_S3x64x128_S3x64.lift (ix2 c' B) p)) = _
  refine congrArg (hit 0x3D800000#32) ?_
  refine (Ideal.multiReduction_add_single x 0x00000000#32 reduces_S3x64x128x16_S3x64x128 (.inl rfl) rfl _).trans ?_
  exact Finset.sum_congr rfl fun (k : Fin 16) _ => congrArg x (lift23 c' B p k)

/-! ## The blocks -/

/-- The printed index maps, decided over the grid: the input's block index is the point on the patch axis, the
    output's the point's group on the row axis. -/
theorem idx_in : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)
theorem idx_out : ∀ t : Fin cfg0.N, win0_1.index t (0 : Fin 3) = t.val / 16 ∧ win0_1.index t (1 : Fin 3) = 0
    ∧ win0_1.index t (2 : Fin 3) = 0 :=
  (by decide +kernel : ∀ t : Fin grid0.N, _)

variable (V : (c : Dev nD) → (b : Ref sig .tc) → Buf (Elt Ideal) ((c : Thread nD τ).loc b))

/-- Point `t`'s input block at (c', B, p, k) is the input array at patch `128 t + p`. -/
theorem iblk_apply (c : Dev nD) (t : Fin cfg0.N) (c' : Fin 3) (B : Fin 64) (p : Fin 128) (k : Fin 16)
    (h : t.val * 128 + p.val < 4096) :
    (iblk0 V c 0 t : Vec Ideal S3x64x128x16 .f32) (ix4 c' B p k)
      = (V c main_v0 : FVec Ideal S3x64x4096x16 .f32) (ix4 c' B ⟨t.val * 128 + p.val, h⟩ k) := by
  obtain ⟨e0, e1, e2, e3⟩ := idx_in t
  unfold iblk0
  rw [View.read_apply]
  show V c main_v0 (((cfg0.win 0).blk t).view.emb (ix4 c' B p k)) = _
  refine congrArg _ (funext fun a => Fin.ext ?_)
  match a with
  | ⟨0, _⟩ => show win0_0.index t (0 : Fin 4) * 3 + 1 * c'.val = c'.val; omega
  | ⟨1, _⟩ => show win0_0.index t (1 : Fin 4) * 64 + 1 * B.val = B.val; omega
  | ⟨2, _⟩ => show win0_0.index t (2 : Fin 4) * 128 + 1 * p.val = t.val * 128 + p.val; omega
  | ⟨3, _⟩ => show win0_0.index t (3 : Fin 4) * 16 + 1 * k.val = k.val; omega

/-- What point `t` adds at (c', B), over the input array. -/
theorem point_sum (c : Dev nD) (t : Fin cfg0.N) (c' : Fin 3) (B : Fin 64) :
    ∑ p : Fin 128, hit 0x3D800000#32 (∑ k : Fin 16, (iblk0 V c 0 t : Vec Ideal S3x64x128x16 .f32) (ix4 c' B p k))
      = pt 0x3D800000#32 (V c main_v0 : FVec Ideal S3x64x4096x16 .f32) 128 c' B t.val := by
  have hN : cfg0.N = 32 := N_0
  have ht : t.val < cfg0.N := t.isLt
  unfold pt
  rw [Finset.sum_range]
  refine Finset.sum_congr rfl fun p _ => ?_
  have hp : p.val < 128 := p.isLt
  have h : t.val * 128 + p.val < 4096 := by omega
  unfold q
  rw [dif_pos h]
  exact congrArg _ (Finset.sum_congr rfl fun k _ => iblk_apply V c t c' B p k h)

/-! ## The row after each point -/

/-- The row's entry (c', B) after point `n` (`0` past the grid). -/
def acc (c : Dev nD) (u : Fin 1) (c' : Fin 3) (B : Fin 64) (n : ℕ) : EReal :=
  if h : n < cfg0.N then outsAt0 V c n h (ix3 u c' B) else 0

theorem acc_eq (c : Dev nD) (u : Fin 1) (c' : Fin 3) (B : Fin 64) (t : Fin cfg0.N) :
    acc V c u c' B t.val = outsAt0 V c t.val t.isLt (ix3 u c' B) := dif_pos t.isLt

/-- At a group's first point the entry is zero plus what the point adds. -/
theorem acc_A (c : Dev nD) (u : Fin 1) (c' : Fin 3) (B : Fin 64) (t : Fin cfg0.N) (h0 : t.val % 16 = 0) :
    acc V c u c' B t.val
      = Ideal.ofBits .f32 0x00000000#32 + pt 0x3D800000#32 (V c main_v0 : FVec Ideal S3x64x4096x16 .f32) 128 c' B t.val := by
  rw [acc_eq]
  have e1 := congrFun (outsAt0_A V c t h0) (ix3 u c' B)
  have e2 := congrFun (out_A (F := Ideal) c (grid0.coords t) (ms0_0 t) (hs0_0 t) (ms0_1 t) (hs0_1 t) ((hcond0_0 t).mpr h0) (iblk0 V c 0 t)) (ix3 u c' B)
  exact e1.trans (e2.trans ((pay2_apply (iblk0 V c 0 t) (k0_pay1 (F := Ideal)) u c' B).trans
    (congrArg (Ideal.ofBits .f32 0x00000000#32 + ·) (point_sum V c t c' B))))

/-- At a later point it is the entry after the point before plus what the point adds. -/
theorem acc_B (c : Dev nD) (u : Fin 1) (c' : Fin 3) (B : Fin 64) (t : Fin cfg0.N) (h0 : ¬t.val % 16 = 0) :
    acc V c u c' B t.val
      = acc V c u c' B (t.val - 1) + pt 0x3D800000#32 (V c main_v0 : FVec Ideal S3x64x4096x16 .f32) 128 c' B t.val := by
  rw [acc_eq]
  have hlt : t.val - 1 < cfg0.N := Nat.lt_of_le_of_lt (Nat.sub_le _ _) t.isLt
  have e0 : acc V c u c' B (t.val - 1) = outsAt0 V c (t.val - 1) hlt (ix3 u c' B) := dif_pos hlt
  rw [e0]
  have e1 := congrFun (outsAt0_B V c t h0) (ix3 u c' B)
  have e2 := congrFun (out_B (F := Ideal) c (grid0.coords t) (ms0_0 t) (hs0_0 t) (ms0_1 t) (hs0_1 t) (fun h => h0 ((hcond0_0 t).mp h)) (iblk0 V c 0 t)
    (outsAt0 V c (t.val - 1) hlt)) (ix3 u c' B)
  exact e1.trans (e2.trans ((pay2_apply (iblk0 V c 0 t) (outsAt0 V c (t.val - 1) hlt) u c' B).trans
    (congrArg (outsAt0 V c (t.val - 1) hlt (ix3 u c' B) + ·) (point_sum V c t c' B))))

/-- After point `o · 16 + i` the entry is zero plus what the group's points so far add. -/
theorem row_acc (c : Dev nD) (u : Fin 1) (c' : Fin 3) (B : Fin 64) (o : ℕ) (ho : o < 2) (i : ℕ) (hi : i < 16) :
    acc V c u c' B (o * 16 + i) = Ideal.ofBits .f32 0x00000000#32
      + ∑ k ∈ Finset.range (i + 1), pt 0x3D800000#32 (V c main_v0 : FVec Ideal S3x64x4096x16 .f32) 128 c' B (o * 16 + k) := by
  have hN : cfg0.N = 32 := N_0
  refine acc_row (acc V c u c' B) (pt 0x3D800000#32 (V c main_v0 : FVec Ideal S3x64x4096x16 .f32) 128 c' B) _ o 16 ?_ ?_ i hi
  · exact acc_A V c u c' B ⟨o * 16, by omega⟩ (by show (o * 16) % 16 = 0; omega)
  · intro j hj
    have hB := acc_B V c u c' B ⟨o * 16 + (j + 1), by omega⟩ (by show ¬(o * 16 + (j + 1)) % 16 = 0; omega)
    have e : (⟨o * 16 + (j + 1), by omega⟩ : Fin cfg0.N).val - 1 = o * 16 + j := by show o * 16 + (j + 1) - 1 = _; omega
    rw [e] at hB
    exact hB

/-! ## The output array -/

/-- The output array: row `o` at (c', B) is zero plus what the group's 16 points add. -/
def rows (X : FVec Ideal S3x64x4096x16 .f32) : FVec Ideal S2x3x64 .f32 :=
  fun j => rowAt 0x3D800000#32 X 16 128 (j 0).val (j 1) (j 2)

/-- The write-back after a group's last point writes the group's row. -/
theorem flushed_eq (c : Dev nD) (t : Fin cfg0.N) (hf : (cfg0.win 1).flush t = true) :
    (dat0 V c).flushed 1 t = ((cfg0.win 1).blk t).view.read (Elt Ideal) (rows (V c main_v0)) := by
  have hN : cfg0.N = 32 := N_0
  have ht : t.val < cfg0.N := t.isLt
  have hl : t.val % 16 = 15 := (flush0_1 t).mp hf
  obtain ⟨e0, e1, e2⟩ := idx_out t
  show (cfg0.win 1).cut (grid0.coords t) ((dat0 V c).after 1 t) = _
  rw [after0_1]
  funext y
  obtain ⟨u, c', B, rfl⟩ : ∃ (u : Fin 1) (c' : Fin 3) (B : Fin 64), y = ix3 u c' B := ⟨y 0, y 1, y 2, eq_ix3 y⟩
  rw [View.read_apply]
  have hu : u.val = 0 := by omega
  have hemb : ((cfg0.win 1).blk t).view.emb (ix3 u c' B) = ix3 (⟨t.val / 16, by omega⟩ : Fin 2) c' B :=
    funext fun a => Fin.ext (by
      match a with
      | ⟨0, _⟩ => show win0_1.index t (0 : Fin 3) * 1 + 1 * u.val = t.val / 16; omega
      | ⟨1, _⟩ => show win0_1.index t (1 : Fin 3) * 3 + 1 * c'.val = c'.val; omega
      | ⟨2, _⟩ => show win0_1.index t (2 : Fin 3) * 64 + 1 * B.val = B.val; omega)
  rw [hemb]
  show outsAt0 V c t.val t.isLt (ix3 u c' B) = rowAt 0x3D800000#32 (V c main_v0) 16 128 (t.val / 16) c' B
  rw [← acc_eq V c u c' B t]
  have et : t.val = t.val / 16 * 16 + 15 := by omega
  have hr := row_acc V c u c' B (t.val / 16) (by omega) 15 (by omega)
  rw [← et] at hr
  exact hr

/-- An index of the output array is in point `t`'s block iff each coordinate is in the block's range on its axis. -/
theorem mem_blk (t : Fin cfg0.N) (i : S2x3x64.Idx) :
    i ∈ ((cfg0.win 1).blk t).view.set ↔ ∀ a : Fin 3, win0_1.index t a * S1x3x64.size a ≤ (i a).val ∧ (i a).val < win0_1.index t a * S1x3x64.size a + S1x3x64.size a := by
  show i ∈ ((View.whole main_v1).slice (win0_1.rect t)).set ↔ _
  rw [View.set_slice_whole, Rect.mem_set_unit]
  exact Iff.rfl

/-- The pallas_call leaves its output array at `rows` of its input array: row `o` is written back after point
    `o · 16 + 15`, and the two rows are the array. -/
theorem final (c : Dev nD) : (dat0 V c).arrAt 1 cfg0.N = rows (V c main_v0) :=
  (dat0 V c).arrAt_eq_of_cover 1 (rows (V c main_v0)) (flushed_eq V c) fun i => by
    have hN : cfg0.N = 32 := N_0
    have h0 : (i 0).val < 2 := (i 0).isLt
    have h1 : (i 1).val < 3 := (i 1).isLt
    have h2 : (i 2).val < 64 := (i 2).isLt
    let t : Fin cfg0.N := ⟨(i 0).val * 16 + 15, by omega⟩
    have htv : t.val = (i 0).val * 16 + 15 := rfl
    obtain ⟨e0, e1, e2⟩ := idx_out t
    refine ⟨t, (flush0_1 t).mpr (by omega), ?_⟩
    rw [mem_blk]
    intro a
    match a with
    | ⟨0, _⟩ => show win0_1.index t (0 : Fin 3) * 1 ≤ (i 0).val ∧ (i 0).val < win0_1.index t (0 : Fin 3) * 1 + 1; omega
    | ⟨1, _⟩ => show win0_1.index t (1 : Fin 3) * 3 ≤ (i 1).val ∧ (i 1).val < win0_1.index t (1 : Fin 3) * 3 + 3; omega
    | ⟨2, _⟩ => show win0_1.index t (2 : Fin 3) * 64 ≤ (i 2).val ∧ (i 2).val < win0_1.index t (2 : Fin 3) * 64 + 64; omega

/-! ## The host's sum of the rows -/

theorem lift0 (c' : Fin 3) (B : Fin 64) (o : Fin 2) :
    (by decide : S2x3x64.Reduces [0] S3x64).lift (ix2 c' B) o = ix3 o c' B :=
  funext fun a => Fin.ext (by match a with | ⟨0, _⟩ => rfl | ⟨1, _⟩ => rfl | ⟨2, _⟩ => rfl)

/-- The two rows added from zero: the number of occupied patches among all 4096. -/
theorem count (X : FVec Ideal S3x64x4096x16 .f32) (c' : Fin 3) (B : Fin 64) :
    Host.reduceAdd (F := Ideal) (rows X) (constant (F := Ideal) S_ .f32 0x00000000#32) reducesTo_S2x3x64_S3x64_d0 h_S_ (ix2 c' B)
      = cnt 0x3D800000#32 X c' B := by
  show Ideal.hostReduceAdd reducesTo_S2x3x64_S3x64_d0 (rows X) (Ideal.ofBits .f32 0x00000000#32) (ix2 c' B) = _
  rw [Ideal.hostReduceAdd_single reducesTo_S2x3x64_S3x64_d0 (by decide), ← rows_cnt 0x3D800000#32 X 2 16 128 (by norm_num) c' B,
    Finset.sum_range]
  refine congrArg (_ + ·) (Finset.sum_congr rfl fun (o : Fin 2) _ => ?_)
  rw [lift0]
  rfl

end Cert.KernelIdeal.Reg0

end
-- ==== Proof.KReg1.lean ====
/-
  The second pallas_call's output array, as one function of its input array.

  The call walks 8 grid points `t = o · 4 + i` (`o < 2`, `i < 4`). At point `t` its input block is rows `128 t … 128 t + 127` of the
  patch axis of the input array `X` : [3, 64, 1024, 64], and its output block is row `o` of the output array [2, 3, 64], which
  stays in its staging buffer while `o` does not change and is written back after the group's last point. The body
  adds, entry by entry, the number of occupied patches of its block to that row — after resetting the row to zero at
  the group's first point (`i = 0`). So after point `o · 4 + i` the row holds zero plus what the points `o · 4 … o · 4 + i`
  add (induction on `i`: `row_acc`), the write-back after point `o · 4 + 3` writes the whole row `o`, and the two rows
  cover the array: `final`. The host's sum of the two rows from zero is then the count over all 1024 patches (`count`).
-/
import proofs.«111001_j31885837205970_2_alg».proof.Defs
import proofs.«111001_j31885837205970_2_alg».proof.Proof.Gen.KernelIdeal.Frame
import proofs.«111001_j31885837205970_2_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)
open Cert.Perc

/-! ## What each case of the body leaves in the row's staging buffer -/

section Body

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a group: the row it finds, `xo`, plus the block's counts — the body's one store, whose loads read
    the two whole buffers. -/
theorem out_B (c : Dev nD) (i : grid1.Coords) (a1 : Memref sig .tc .vmem S3x64x128x64 .f32) (h1 : a1.IsWhole)
    (a2 : Memref sig .tc .vmem S1x3x64 .f32) (h2 : a2.IsWhole) (hc : ¬cond1_0 i) (x : Vec F S3x64x128x64 .f32) (xo : Vec F S1x3x64 .f32) :
    out1_B_1 c i a1 h1 a2 h2 hc x xo = k1_pay2 x xo := by
  unfold out1_B_1
  rw [View.read_writes_eq_canon _ _ _ (cover1_B_1 c i a1 h1 a2 h2 hc x xo)]
  unfold kernelRun1_B
  dsimp only
  rw [View.canon_unit_zero hz3]
  simp only [View.readAt_eq_ld, h1.read_unread, h2.read_unread, View.ld_unit_zero (S := S3x64x128x64) hz4,
    View.ld_unit_zero (S := S1x3x64) hz3]

/-- A group's first point: the body stores the zero row, reads it back, and leaves it plus the block's counts. -/
theorem out_A (c : Dev nD) (i : grid1.Coords) (a1 : Memref sig .tc .vmem S3x64x128x64 .f32) (h1 : a1.IsWhole)
    (a2 : Memref sig .tc .vmem S1x3x64 .f32) (h2 : a2.IsWhole) (hc : cond1_0 i) (x : Vec F S3x64x128x64 .f32) :
    out1_A_1 c i a1 h1 a2 h2 hc x = k1_pay2 x (k1_pay1 (F := F)) := by
  unfold out1_A_1
  rw [View.read_writes_eq_canon _ _ _ (cover1_A_1 c i a1 h1 a2 h2 hc x)]
  unfold kernelRun1_A
  dsimp only
  sl_unfold_words
  rw [View.canon_cons_unit_zero (S := S1x3x64) hz3, View.readCov_unit_zero (S := S1x3x64) _ hz3]
  simp only [View.readAt_eq_ld, h1.read_unread, View.ld_unit_zero (S := S3x64x128x64) hz4]

end Body

/-! ## The store's payload at an entry -/

/-- The index a box's entry `k` of patch `p` has, reached through the two sums' inserted coordinates. -/
theorem lift23 (c' : Fin 3) (B : Fin 64) (p : Fin 128) (k : Fin 64) :
    reduces_S3x64x128x64_S3x64x128.lift (reduces_S3x64x128_S3x64.lift (ix2 c' B) p) k = ix4 c' B p k :=
  funext fun a => Fin.ext (by match a with | ⟨0, _⟩ => rfl | ⟨1, _⟩ => rfl | ⟨2, _⟩ => rfl | ⟨3, _⟩ => rfl)

/-- At entry (c', B) the payload is the row's entry plus the number of the block's 128 patches whose box sum, scaled,
    reaches the threshold: the two lane sums read as sums over their axes, the rest entry by entry. -/
theorem pay2_apply (x : FVec Ideal S3x64x128x64 .f32) (y : FVec Ideal S1x3x64 .f32) (u : Fin 1) (c' : Fin 3) (B : Fin 64) :
    k1_pay2 (F := Ideal) x y (ix3 u c' B)
      = y (ix3 u c' B) + ∑ p : Fin 128, hit 0x3C800000#32 (∑ k : Fin 64, x (ix4 c' B p k)) := by
  unfold k1_pay2
  simp only [shapeCast_self]
  show y (ix3 u c' B) + _ = _
  refine congrArg (y (ix3 u c' B) + ·) ?_
  refine (shapeCast_ab_1ab_apply _ shapeCasts_S3x64_S1x3x64 u c' B).trans ?_
  refine (Ideal.multiReduction_add_single _ 0x00000000#32 reduces_S3x64x128_S3x64 (.inl rfl) rfl (ix2 c' B)).trans ?_
  refine Finset.sum_congr rfl fun (p : Fin 128) _ => ?_
  show hit 0x3C800000#32 (multiReduction (F := Ideal) .add [3] S3x64x128 x 0x00000000#32 reduces_S3x64x128x64_S3x64x128 (.inl rfl) rfl
    (reduces_S3x64x128_S3x64.lift (ix2 c' B) p)) = _
  refine congrArg (hit 0x3C800000#32) ?_
  refine (Ideal.multiReduction_add_single x 0x00000000#32 reduces_S3x64x128x64_S3x64x128 (.inl rfl) rfl _).trans ?_
  exact Finset.sum_congr rfl fun (k : Fin 64) _ => congrArg x (lift23 c' B p k)

/-! ## The blocks -/

/-- The printed index maps, decided over the grid: the input's block index is the point on the patch axis, the
    output's the point's group on the row axis. -/
theorem idx_in : ∀ t : Fin cfg1.N, win1_0.index t (0 : Fin 4) = 0 ∧ win1_0.index t (1 : Fin 4) = 0
    ∧ win1_0.index t (2 : Fin 4) = t.val ∧ win1_0.index t (3 : Fin 4) = 0 :=
  (by decide +kernel : ∀ t : Fin grid1.N, _)
theorem idx_out : ∀ t : Fin cfg1.N, win1_1.index t (0 : Fin 3) = t.val / 4 ∧ win1_1.index t (1 : Fin 3) = 0
    ∧ win1_1.index t (2 : Fin 3) = 0 :=
  (by decide +kernel : ∀ t : Fin grid1.N, _)

variable (V : (c : Dev nD) → (b : Ref sig .tc) → Buf (Elt Ideal) ((c : Thread nD τ).loc b))

/-- Point `t`'s input block at (c', B, p, k) is the input array at patch `128 t + p`. -/
theorem iblk_apply (c : Dev nD) (t : Fin cfg1.N) (c' : Fin 3) (B : Fin 64) (p : Fin 128) (k : Fin 64)
    (h : t.val * 128 + p.val < 1024) :
    (iblk1 V c 0 t : Vec Ideal S3x64x128x64 .f32) (ix4 c' B p k)
      = (V c main_v5 : FVec Ideal S3x64x1024x64 .f32) (ix4 c' B ⟨t.val * 128 + p.val, h⟩ k) := by
  obtain ⟨e0, e1, e2, e3⟩ := idx_in t
  unfold iblk1
  rw [View.read_apply]
  show V c main_v5 (((cfg1.win 0).blk t).view.emb (ix4 c' B p k)) = _
  refine congrArg _ (funext fun a => Fin.ext ?_)
  match a with
  | ⟨0, _⟩ => show win1_0.index t (0 : Fin 4) * 3 + 1 * c'.val = c'.val; omega
  | ⟨1, _⟩ => show win1_0.index t (1 : Fin 4) * 64 + 1 * B.val = B.val; omega
  | ⟨2, _⟩ => show win1_0.index t (2 : Fin 4) * 128 + 1 * p.val = t.val * 128 + p.val; omega
  | ⟨3, _⟩ => show win1_0.index t (3 : Fin 4) * 64 + 1 * k.val = k.val; omega

/-- What point `t` adds at (c', B), over the input array. -/
theorem point_sum (c : Dev nD) (t : Fin cfg1.N) (c' : Fin 3) (B : Fin 64) :
    ∑ p : Fin 128, hit 0x3C800000#32 (∑ k : Fin 64, (iblk1 V c 0 t : Vec Ideal S3x64x128x64 .f32) (ix4 c' B p k))
      = pt 0x3C800000#32 (V c main_v5 : FVec Ideal S3x64x1024x64 .f32) 128 c' B t.val := by
  have hN : cfg1.N = 8 := N_1
  have ht : t.val < cfg1.N := t.isLt
  unfold pt
  rw [Finset.sum_range]
  refine Finset.sum_congr rfl fun p _ => ?_
  have hp : p.val < 128 := p.isLt
  have h : t.val * 128 + p.val < 1024 := by omega
  unfold q
  rw [dif_pos h]
  exact congrArg _ (Finset.sum_congr rfl fun k _ => iblk_apply V c t c' B p k h)

/-! ## The row after each point -/

/-- The row's entry (c', B) after point `n` (`0` past the grid). -/
def acc (c : Dev nD) (u : Fin 1) (c' : Fin 3) (B : Fin 64) (n : ℕ) : EReal :=
  if h : n < cfg1.N then outsAt1 V c n h (ix3 u c' B) else 0

theorem acc_eq (c : Dev nD) (u : Fin 1) (c' : Fin 3) (B : Fin 64) (t : Fin cfg1.N) :
    acc V c u c' B t.val = outsAt1 V c t.val t.isLt (ix3 u c' B) := dif_pos t.isLt

/-- At a group's first point the entry is zero plus what the point adds. -/
theorem acc_A (c : Dev nD) (u : Fin 1) (c' : Fin 3) (B : Fin 64) (t : Fin cfg1.N) (h0 : t.val % 4 = 0) :
    acc V c u c' B t.val
      = Ideal.ofBits .f32 0x00000000#32 + pt 0x3C800000#32 (V c main_v5 : FVec Ideal S3x64x1024x64 .f32) 128 c' B t.val := by
  rw [acc_eq]
  have e1 := congrFun (outsAt1_A V c t h0) (ix3 u c' B)
  have e2 := congrFun (out_A (F := Ideal) c (grid1.coords t) (ms1_0 t) (hs1_0 t) (ms1_1 t) (hs1_1 t) ((hcond1_0 t).mpr h0) (iblk1 V c 0 t)) (ix3 u c' B)
  exact e1.trans (e2.trans ((pay2_apply (iblk1 V c 0 t) (k1_pay1 (F := Ideal)) u c' B).trans
    (congrArg (Ideal.ofBits .f32 0x00000000#32 + ·) (point_sum V c t c' B))))

/-- At a later point it is the entry after the point before plus what the point adds. -/
theorem acc_B (c : Dev nD) (u : Fin 1) (c' : Fin 3) (B : Fin 64) (t : Fin cfg1.N) (h0 : ¬t.val % 4 = 0) :
    acc V c u c' B t.val
      = acc V c u c' B (t.val - 1) + pt 0x3C800000#32 (V c main_v5 : FVec Ideal S3x64x1024x64 .f32) 128 c' B t.val := by
  rw [acc_eq]
  have hlt : t.val - 1 < cfg1.N := Nat.lt_of_le_of_lt (Nat.sub_le _ _) t.isLt
  have e0 : acc V c u c' B (t.val - 1) = outsAt1 V c (t.val - 1) hlt (ix3 u c' B) := dif_pos hlt
  rw [e0]
  have e1 := congrFun (outsAt1_B V c t h0) (ix3 u c' B)
  have e2 := congrFun (out_B (F := Ideal) c (grid1.coords t) (ms1_0 t) (hs1_0 t) (ms1_1 t) (hs1_1 t) (fun h => h0 ((hcond1_0 t).mp h)) (iblk1 V c 0 t)
    (outsAt1 V c (t.val - 1) hlt)) (ix3 u c' B)
  exact e1.trans (e2.trans ((pay2_apply (iblk1 V c 0 t) (outsAt1 V c (t.val - 1) hlt) u c' B).trans
    (congrArg (outsAt1 V c (t.val - 1) hlt (ix3 u c' B) + ·) (point_sum V c t c' B))))

/-- After point `o · 4 + i` the entry is zero plus what the group's points so far add. -/
theorem row_acc (c : Dev nD) (u : Fin 1) (c' : Fin 3) (B : Fin 64) (o : ℕ) (ho : o < 2) (i : ℕ) (hi : i < 4) :
    acc V c u c' B (o * 4 + i) = Ideal.ofBits .f32 0x00000000#32
      + ∑ k ∈ Finset.range (i + 1), pt 0x3C800000#32 (V c main_v5 : FVec Ideal S3x64x1024x64 .f32) 128 c' B (o * 4 + k) := by
  have hN : cfg1.N = 8 := N_1
  refine acc_row (acc V c u c' B) (pt 0x3C800000#32 (V c main_v5 : FVec Ideal S3x64x1024x64 .f32) 128 c' B) _ o 4 ?_ ?_ i hi
  · exact acc_A V c u c' B ⟨o * 4, by omega⟩ (by show (o * 4) % 4 = 0; omega)
  · intro j hj
    have hB := acc_B V c u c' B ⟨o * 4 + (j + 1), by omega⟩ (by show ¬(o * 4 + (j + 1)) % 4 = 0; omega)
    have e : (⟨o * 4 + (j + 1), by omega⟩ : Fin cfg1.N).val - 1 = o * 4 + j := by show o * 4 + (j + 1) - 1 = _; omega
    rw [e] at hB
    exact hB

/-! ## The output array -/

/-- The output array: row `o` at (c', B) is zero plus what the group's 4 points add. -/
def rows (X : FVec Ideal S3x64x1024x64 .f32) : FVec Ideal S2x3x64 .f32 :=
  fun j => rowAt 0x3C800000#32 X 4 128 (j 0).val (j 1) (j 2)

/-- The write-back after a group's last point writes the group's row. -/
theorem flushed_eq (c : Dev nD) (t : Fin cfg1.N) (hf : (cfg1.win 1).flush t = true) :
    (dat1 V c).flushed 1 t = ((cfg1.win 1).blk t).view.read (Elt Ideal) (rows (V c main_v5)) := by
  have hN : cfg1.N = 8 := N_1
  have ht : t.val < cfg1.N := t.isLt
  have hl : t.val % 4 = 3 := (flush1_1 t).mp hf
  obtain ⟨e0, e1, e2⟩ := idx_out t
  show (cfg1.win 1).cut (grid1.coords t) ((dat1 V c).after 1 t) = _
  rw [after1_1]
  funext y
  obtain ⟨u, c', B, rfl⟩ : ∃ (u : Fin 1) (c' : Fin 3) (B : Fin 64), y = ix3 u c' B := ⟨y 0, y 1, y 2, eq_ix3 y⟩
  rw [View.read_apply]
  have hu : u.val = 0 := by omega
  have hemb : ((cfg1.win 1).blk t).view.emb (ix3 u c' B) = ix3 (⟨t.val / 4, by omega⟩ : Fin 2) c' B :=
    funext fun a => Fin.ext (by
      match a with
      | ⟨0, _⟩ => show win1_1.index t (0 : Fin 3) * 1 + 1 * u.val = t.val / 4; omega
      | ⟨1, _⟩ => show win1_1.index t (1 : Fin 3) * 3 + 1 * c'.val = c'.val; omega
      | ⟨2, _⟩ => show win1_1.index t (2 : Fin 3) * 64 + 1 * B.val = B.val; omega)
  rw [hemb]
  show outsAt1 V c t.val t.isLt (ix3 u c' B) = rowAt 0x3C800000#32 (V c main_v5) 4 128 (t.val / 4) c' B
  rw [← acc_eq V c u c' B t]
  have et : t.val = t.val / 4 * 4 + 3 := by omega
  have hr := row_acc V c u c' B (t.val / 4) (by omega) 3 (by omega)
  rw [← et] at hr
  exact hr

/-- An index of the output array is in point `t`'s block iff each coordinate is in the block's range on its axis. -/
theorem mem_blk (t : Fin cfg1.N) (i : S2x3x64.Idx) :
    i ∈ ((cfg1.win 1).blk t).view.set ↔ ∀ a : Fin 3, win1_1.index t a * S1x3x64.size a ≤ (i a).val ∧ (i a).val < win1_1.index t a * S1x3x64.size a + S1x3x64.size a := by
  show i ∈ ((View.whole main_v6).slice (win1_1.rect t)).set ↔ _
  rw [View.set_slice_whole, Rect.mem_set_unit]
  exact Iff.rfl

/-- The pallas_call leaves its output array at `rows` of its input array: row `o` is written back after point
    `o · 4 + 3`, and the two rows are the array. -/
theorem final (c : Dev nD) : (dat1 V c).arrAt 1 cfg1.N = rows (V c main_v5) :=
  (dat1 V c).arrAt_eq_of_cover 1 (rows (V c main_v5)) (flushed_eq V c) fun i => by
    have hN : cfg1.N = 8 := N_1
    have h0 : (i 0).val < 2 := (i 0).isLt
    have h1 : (i 1).val < 3 := (i 1).isLt
    have h2 : (i 2).val < 64 := (i 2).isLt
    let t : Fin cfg1.N := ⟨(i 0).val * 4 + 3, by omega⟩
    have htv : t.val = (i 0).val * 4 + 3 := rfl
    obtain ⟨e0, e1, e2⟩ := idx_out t
    refine ⟨t, (flush1_1 t).mpr (by omega), ?_⟩
    rw [mem_blk]
    intro a
    match a with
    | ⟨0, _⟩ => show win1_1.index t (0 : Fin 3) * 1 ≤ (i 0).val ∧ (i 0).val < win1_1.index t (0 : Fin 3) * 1 + 1; omega
    | ⟨1, _⟩ => show win1_1.index t (1 : Fin 3) * 3 ≤ (i 1).val ∧ (i 1).val < win1_1.index t (1 : Fin 3) * 3 + 3; omega
    | ⟨2, _⟩ => show win1_1.index t (2 : Fin 3) * 64 ≤ (i 2).val ∧ (i 2).val < win1_1.index t (2 : Fin 3) * 64 + 64; omega

/-! ## The host's sum of the rows -/

theorem lift0 (c' : Fin 3) (B : Fin 64) (o : Fin 2) :
    (by decide : S2x3x64.Reduces [0] S3x64).lift (ix2 c' B) o = ix3 o c' B :=
  funext fun a => Fin.ext (by match a with | ⟨0, _⟩ => rfl | ⟨1, _⟩ => rfl | ⟨2, _⟩ => rfl)

/-- The two rows added from zero: the number of occupied patches among all 1024. -/
theorem count (X : FVec Ideal S3x64x1024x64 .f32) (c' : Fin 3) (B : Fin 64) :
    Host.reduceAdd (F := Ideal) (rows X) (constant (F := Ideal) S_ .f32 0x00000000#32) reducesTo_S2x3x64_S3x64_d0 h_S_ (ix2 c' B)
      = cnt 0x3C800000#32 X c' B := by
  show Ideal.hostReduceAdd reducesTo_S2x3x64_S3x64_d0 (rows X) (Ideal.ofBits .f32 0x00000000#32) (ix2 c' B) = _
  rw [Ideal.hostReduceAdd_single reducesTo_S2x3x64_S3x64_d0 (by decide), ← rows_cnt 0x3C800000#32 X 2 4 128 (by norm_num) c' B,
    Finset.sum_range]
  refine congrArg (_ + ·) (Finset.sum_congr rfl fun (o : Fin 2) _ => ?_)
  rw [lift0]
  rfl

end Cert.KernelIdeal.Reg1

end
-- ==== Proof.KReg2.lean ====
/-
  The third pallas_call's output array, as one function of its input array.

  The call walks 8 grid points `t = o · 4 + i` (`o < 2`, `i < 4`). At point `t` its input block is rows `32 t … 32 t + 31` of the
  patch axis of the input array `X` : [3, 64, 256, 256], and its output block is row `o` of the output array [2, 3, 64], which
  stays in its staging buffer while `o` does not change and is written back after the group's last point. The body
  adds, entry by entry, the number of occupied patches of its block to that row — after resetting the row to zero at
  the group's first point (`i = 0`). So after point `o · 4 + i` the row holds zero plus what the points `o · 4 … o · 4 + i`
  add (induction on `i`: `row_acc`), the write-back after point `o · 4 + 3` writes the whole row `o`, and the two rows
  cover the array: `final`. The host's sum of the two rows from zero is then the count over all 256 patches (`count`).
-/
import proofs.«111001_j31885837205970_2_alg».proof.Defs
import proofs.«111001_j31885837205970_2_alg».proof.Proof.Gen.KernelIdeal.Frame
import proofs.«111001_j31885837205970_2_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)
open Cert.Perc

/-! ## What each case of the body leaves in the row's staging buffer -/

section Body

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a group: the row it finds, `xo`, plus the block's counts — the body's one store, whose loads read
    the two whole buffers. -/
theorem out_B (c : Dev nD) (i : grid2.Coords) (a1 : Memref sig .tc .vmem S3x64x32x256 .f32) (h1 : a1.IsWhole)
    (a2 : Memref sig .tc .vmem S1x3x64 .f32) (h2 : a2.IsWhole) (hc : ¬cond2_0 i) (x : Vec F S3x64x32x256 .f32) (xo : Vec F S1x3x64 .f32) :
    out2_B_1 c i a1 h1 a2 h2 hc x xo = k2_pay2 x xo := by
  unfold out2_B_1
  rw [View.read_writes_eq_canon _ _ _ (cover2_B_1 c i a1 h1 a2 h2 hc x xo)]
  unfold kernelRun2_B
  dsimp only
  rw [View.canon_unit_zero hz3]
  simp only [View.readAt_eq_ld, h1.read_unread, h2.read_unread, View.ld_unit_zero (S := S3x64x32x256) hz4,
    View.ld_unit_zero (S := S1x3x64) hz3]

/-- A group's first point: the body stores the zero row, reads it back, and leaves it plus the block's counts. -/
theorem out_A (c : Dev nD) (i : grid2.Coords) (a1 : Memref sig .tc .vmem S3x64x32x256 .f32) (h1 : a1.IsWhole)
    (a2 : Memref sig .tc .vmem S1x3x64 .f32) (h2 : a2.IsWhole) (hc : cond2_0 i) (x : Vec F S3x64x32x256 .f32) :
    out2_A_1 c i a1 h1 a2 h2 hc x = k2_pay2 x (k2_pay1 (F := F)) := by
  unfold out2_A_1
  rw [View.read_writes_eq_canon _ _ _ (cover2_A_1 c i a1 h1 a2 h2 hc x)]
  unfold kernelRun2_A
  dsimp only
  sl_unfold_words
  rw [View.canon_cons_unit_zero (S := S1x3x64) hz3, View.readCov_unit_zero (S := S1x3x64) _ hz3]
  simp only [View.readAt_eq_ld, h1.read_unread, View.ld_unit_zero (S := S3x64x32x256) hz4]

end Body

/-! ## The store's payload at an entry -/

/-- The index a box's entry `k` of patch `p` has, reached through the two sums' inserted coordinates. -/
theorem lift23 (c' : Fin 3) (B : Fin 64) (p : Fin 32) (k : Fin 256) :
    reduces_S3x64x32x256_S3x64x32.lift (reduces_S3x64x32_S3x64.lift (ix2 c' B) p) k = ix4 c' B p k :=
  funext fun a => Fin.ext (by match a with | ⟨0, _⟩ => rfl | ⟨1, _⟩ => rfl | ⟨2, _⟩ => rfl | ⟨3, _⟩ => rfl)

/-- At entry (c', B) the payload is the row's entry plus the number of the block's 32 patches whose box sum, scaled,
    reaches the threshold: the two lane sums read as sums over their axes, the rest entry by entry. -/
theorem pay2_apply (x : FVec Ideal S3x64x32x256 .f32) (y : FVec Ideal S1x3x64 .f32) (u : Fin 1) (c' : Fin 3) (B : Fin 64) :
    k2_pay2 (F := Ideal) x y (ix3 u c' B)
      = y (ix3 u c' B) + ∑ p : Fin 32, hit 0x3B800000#32 (∑ k : Fin 256, x (ix4 c' B p k)) := by
  unfold k2_pay2
  simp only [shapeCast_self]
  show y (ix3 u c' B) + _ = _
  refine congrArg (y (ix3 u c' B) + ·) ?_
  refine (shapeCast_ab_1ab_apply _ shapeCasts_S3x64_S1x3x64 u c' B).trans ?_
  refine (Ideal.multiReduction_add_single _ 0x00000000#32 reduces_S3x64x32_S3x64 (.inl rfl) rfl (ix2 c' B)).trans ?_
  refine Finset.sum_congr rfl fun (p : Fin 32) _ => ?_
  show hit 0x3B800000#32 (multiReduction (F := Ideal) .add [3] S3x64x32 x 0x00000000#32 reduces_S3x64x32x256_S3x64x32 (.inl rfl) rfl
    (reduces_S3x64x32_S3x64.lift (ix2 c' B) p)) = _
  refine congrArg (hit 0x3B800000#32) ?_
  refine (Ideal.multiReduction_add_single x 0x00000000#32 reduces_S3x64x32x256_S3x64x32 (.inl rfl) rfl _).trans ?_
  exact Finset.sum_congr rfl fun (k : Fin 256) _ => congrArg x (lift23 c' B p k)

/-! ## The blocks -/

/-- The printed index maps, decided over the grid: the input's block index is the point on the patch axis, the
    output's the point's group on the row axis. -/
theorem idx_in : ∀ t : Fin cfg2.N, win2_0.index t (0 : Fin 4) = 0 ∧ win2_0.index t (1 : Fin 4) = 0
    ∧ win2_0.index t (2 : Fin 4) = t.val ∧ win2_0.index t (3 : Fin 4) = 0 :=
  (by decide +kernel : ∀ t : Fin grid2.N, _)
theorem idx_out : ∀ t : Fin cfg2.N, win2_1.index t (0 : Fin 3) = t.val / 4 ∧ win2_1.index t (1 : Fin 3) = 0
    ∧ win2_1.index t (2 : Fin 3) = 0 :=
  (by decide +kernel : ∀ t : Fin grid2.N, _)

variable (V : (c : Dev nD) → (b : Ref sig .tc) → Buf (Elt Ideal) ((c : Thread nD τ).loc b))

/-- Point `t`'s input block at (c', B, p, k) is the input array at patch `32 t + p`. -/
theorem iblk_apply (c : Dev nD) (t : Fin cfg2.N) (c' : Fin 3) (B : Fin 64) (p : Fin 32) (k : Fin 256)
    (h : t.val * 32 + p.val < 256) :
    (iblk2 V c 0 t : Vec Ideal S3x64x32x256 .f32) (ix4 c' B p k)
      = (V c main_v10 : FVec Ideal S3x64x256x256 .f32) (ix4 c' B ⟨t.val * 32 + p.val, h⟩ k) := by
  obtain ⟨e0, e1, e2, e3⟩ := idx_in t
  unfold iblk2
  rw [View.read_apply]
  show V c main_v10 (((cfg2.win 0).blk t).view.emb (ix4 c' B p k)) = _
  refine congrArg _ (funext fun a => Fin.ext ?_)
  match a with
  | ⟨0, _⟩ => show win2_0.index t (0 : Fin 4) * 3 + 1 * c'.val = c'.val; omega
  | ⟨1, _⟩ => show win2_0.index t (1 : Fin 4) * 64 + 1 * B.val = B.val; omega
  | ⟨2, _⟩ => show win2_0.index t (2 : Fin 4) * 32 + 1 * p.val = t.val * 32 + p.val; omega
  | ⟨3, _⟩ => show win2_0.index t (3 : Fin 4) * 256 + 1 * k.val = k.val; omega

/-- What point `t` adds at (c', B), over the input array. -/
theorem point_sum (c : Dev nD) (t : Fin cfg2.N) (c' : Fin 3) (B : Fin 64) :
    ∑ p : Fin 32, hit 0x3B800000#32 (∑ k : Fin 256, (iblk2 V c 0 t : Vec Ideal S3x64x32x256 .f32) (ix4 c' B p k))
      = pt 0x3B800000#32 (V c main_v10 : FVec Ideal S3x64x256x256 .f32) 32 c' B t.val := by
  have hN : cfg2.N = 8 := N_2
  have ht : t.val < cfg2.N := t.isLt
  unfold pt
  rw [Finset.sum_range]
  refine Finset.sum_congr rfl fun p _ => ?_
  have hp : p.val < 32 := p.isLt
  have h : t.val * 32 + p.val < 256 := by omega
  unfold q
  rw [dif_pos h]
  exact congrArg _ (Finset.sum_congr rfl fun k _ => iblk_apply V c t c' B p k h)

/-! ## The row after each point -/

/-- The row's entry (c', B) after point `n` (`0` past the grid). -/
def acc (c : Dev nD) (u : Fin 1) (c' : Fin 3) (B : Fin 64) (n : ℕ) : EReal :=
  if h : n < cfg2.N then outsAt2 V c n h (ix3 u c' B) else 0

theorem acc_eq (c : Dev nD) (u : Fin 1) (c' : Fin 3) (B : Fin 64) (t : Fin cfg2.N) :
    acc V c u c' B t.val = outsAt2 V c t.val t.isLt (ix3 u c' B) := dif_pos t.isLt

/-- At a group's first point the entry is zero plus what the point adds. -/
theorem acc_A (c : Dev nD) (u : Fin 1) (c' : Fin 3) (B : Fin 64) (t : Fin cfg2.N) (h0 : t.val % 4 = 0) :
    acc V c u c' B t.val
      = Ideal.ofBits .f32 0x00000000#32 + pt 0x3B800000#32 (V c main_v10 : FVec Ideal S3x64x256x256 .f32) 32 c' B t.val := by
  rw [acc_eq]
  have e1 := congrFun (outsAt2_A V c t h0) (ix3 u c' B)
  have e2 := congrFun (out_A (F := Ideal) c (grid2.coords t) (ms2_0 t) (hs2_0 t) (ms2_1 t) (hs2_1 t) ((hcond2_0 t).mpr h0) (iblk2 V c 0 t)) (ix3 u c' B)
  exact e1.trans (e2.trans ((pay2_apply (iblk2 V c 0 t) (k2_pay1 (F := Ideal)) u c' B).trans
    (congrArg (Ideal.ofBits .f32 0x00000000#32 + ·) (point_sum V c t c' B))))

/-- At a later point it is the entry after the point before plus what the point adds. -/
theorem acc_B (c : Dev nD) (u : Fin 1) (c' : Fin 3) (B : Fin 64) (t : Fin cfg2.N) (h0 : ¬t.val % 4 = 0) :
    acc V c u c' B t.val
      = acc V c u c' B (t.val - 1) + pt 0x3B800000#32 (V c main_v10 : FVec Ideal S3x64x256x256 .f32) 32 c' B t.val := by
  rw [acc_eq]
  have hlt : t.val - 1 < cfg2.N := Nat.lt_of_le_of_lt (Nat.sub_le _ _) t.isLt
  have e0 : acc V c u c' B (t.val - 1) = outsAt2 V c (t.val - 1) hlt (ix3 u c' B) := dif_pos hlt
  rw [e0]
  have e1 := congrFun (outsAt2_B V c t h0) (ix3 u c' B)
  have e2 := congrFun (out_B (F := Ideal) c (grid2.coords t) (ms2_0 t) (hs2_0 t) (ms2_1 t) (hs2_1 t) (fun h => h0 ((hcond2_0 t).mp h)) (iblk2 V c 0 t)
    (outsAt2 V c (t.val - 1) hlt)) (ix3 u c' B)
  exact e1.trans (e2.trans ((pay2_apply (iblk2 V c 0 t) (outsAt2 V c (t.val - 1) hlt) u c' B).trans
    (congrArg (outsAt2 V c (t.val - 1) hlt (ix3 u c' B) + ·) (point_sum V c t c' B))))

/-- After point `o · 4 + i` the entry is zero plus what the group's points so far add. -/
theorem row_acc (c : Dev nD) (u : Fin 1) (c' : Fin 3) (B : Fin 64) (o : ℕ) (ho : o < 2) (i : ℕ) (hi : i < 4) :
    acc V c u c' B (o * 4 + i) = Ideal.ofBits .f32 0x00000000#32
      + ∑ k ∈ Finset.range (i + 1), pt 0x3B800000#32 (V c main_v10 : FVec Ideal S3x64x256x256 .f32) 32 c' B (o * 4 + k) := by
  have hN : cfg2.N = 8 := N_2
  refine acc_row (acc V c u c' B) (pt 0x3B800000#32 (V c main_v10 : FVec Ideal S3x64x256x256 .f32) 32 c' B) _ o 4 ?_ ?_ i hi
  · exact acc_A V c u c' B ⟨o * 4, by omega⟩ (by show (o * 4) % 4 = 0; omega)
  · intro j hj
    have hB := acc_B V c u c' B ⟨o * 4 + (j + 1), by omega⟩ (by show ¬(o * 4 + (j + 1)) % 4 = 0; omega)
    have e : (⟨o * 4 + (j + 1), by omega⟩ : Fin cfg2.N).val - 1 = o * 4 + j := by show o * 4 + (j + 1) - 1 = _; omega
    rw [e] at hB
    exact hB

/-! ## The output array -/

/-- The output array: row `o` at (c', B) is zero plus what the group's 4 points add. -/
def rows (X : FVec Ideal S3x64x256x256 .f32) : FVec Ideal S2x3x64 .f32 :=
  fun j => rowAt 0x3B800000#32 X 4 32 (j 0).val (j 1) (j 2)

/-- The write-back after a group's last point writes the group's row. -/
theorem flushed_eq (c : Dev nD) (t : Fin cfg2.N) (hf : (cfg2.win 1).flush t = true) :
    (dat2 V c).flushed 1 t = ((cfg2.win 1).blk t).view.read (Elt Ideal) (rows (V c main_v10)) := by
  have hN : cfg2.N = 8 := N_2
  have ht : t.val < cfg2.N := t.isLt
  have hl : t.val % 4 = 3 := (flush2_1 t).mp hf
  obtain ⟨e0, e1, e2⟩ := idx_out t
  show (cfg2.win 1).cut (grid2.coords t) ((dat2 V c).after 1 t) = _
  rw [after2_1]
  funext y
  obtain ⟨u, c', B, rfl⟩ : ∃ (u : Fin 1) (c' : Fin 3) (B : Fin 64), y = ix3 u c' B := ⟨y 0, y 1, y 2, eq_ix3 y⟩
  rw [View.read_apply]
  have hu : u.val = 0 := by omega
  have hemb : ((cfg2.win 1).blk t).view.emb (ix3 u c' B) = ix3 (⟨t.val / 4, by omega⟩ : Fin 2) c' B :=
    funext fun a => Fin.ext (by
      match a with
      | ⟨0, _⟩ => show win2_1.index t (0 : Fin 3) * 1 + 1 * u.val = t.val / 4; omega
      | ⟨1, _⟩ => show win2_1.index t (1 : Fin 3) * 3 + 1 * c'.val = c'.val; omega
      | ⟨2, _⟩ => show win2_1.index t (2 : Fin 3) * 64 + 1 * B.val = B.val; omega)
  rw [hemb]
  show outsAt2 V c t.val t.isLt (ix3 u c' B) = rowAt 0x3B800000#32 (V c main_v10) 4 32 (t.val / 4) c' B
  rw [← acc_eq V c u c' B t]
  have et : t.val = t.val / 4 * 4 + 3 := by omega
  have hr := row_acc V c u c' B (t.val / 4) (by omega) 3 (by omega)
  rw [← et] at hr
  exact hr

/-- An index of the output array is in point `t`'s block iff each coordinate is in the block's range on its axis. -/
theorem mem_blk (t : Fin cfg2.N) (i : S2x3x64.Idx) :
    i ∈ ((cfg2.win 1).blk t).view.set ↔ ∀ a : Fin 3, win2_1.index t a * S1x3x64.size a ≤ (i a).val ∧ (i a).val < win2_1.index t a * S1x3x64.size a + S1x3x64.size a := by
  show i ∈ ((View.whole main_v11).slice (win2_1.rect t)).set ↔ _
  rw [View.set_slice_whole, Rect.mem_set_unit]
  exact Iff.rfl

/-- The pallas_call leaves its output array at `rows` of its input array: row `o` is written back after point
    `o · 4 + 3`, and the two rows are the array. -/
theorem final (c : Dev nD) : (dat2 V c).arrAt 1 cfg2.N = rows (V c main_v10) :=
  (dat2 V c).arrAt_eq_of_cover 1 (rows (V c main_v10)) (flushed_eq V c) fun i => by
    have hN : cfg2.N = 8 := N_2
    have h0 : (i 0).val < 2 := (i 0).isLt
    have h1 : (i 1).val < 3 := (i 1).isLt
    have h2 : (i 2).val < 64 := (i 2).isLt
    let t : Fin cfg2.N := ⟨(i 0).val * 4 + 3, by omega⟩
    have htv : t.val = (i 0).val * 4 + 3 := rfl
    obtain ⟨e0, e1, e2⟩ := idx_out t
    refine ⟨t, (flush2_1 t).mpr (by omega), ?_⟩
    rw [mem_blk]
    intro a
    match a with
    | ⟨0, _⟩ => show win2_1.index t (0 : Fin 3) * 1 ≤ (i 0).val ∧ (i 0).val < win2_1.index t (0 : Fin 3) * 1 + 1; omega
    | ⟨1, _⟩ => show win2_1.index t (1 : Fin 3) * 3 ≤ (i 1).val ∧ (i 1).val < win2_1.index t (1 : Fin 3) * 3 + 3; omega
    | ⟨2, _⟩ => show win2_1.index t (2 : Fin 3) * 64 ≤ (i 2).val ∧ (i 2).val < win2_1.index t (2 : Fin 3) * 64 + 64; omega

/-! ## The host's sum of the rows -/

theorem lift0 (c' : Fin 3) (B : Fin 64) (o : Fin 2) :
    (by decide : S2x3x64.Reduces [0] S3x64).lift (ix2 c' B) o = ix3 o c' B :=
  funext fun a => Fin.ext (by match a with | ⟨0, _⟩ => rfl | ⟨1, _⟩ => rfl | ⟨2, _⟩ => rfl)

/-- The two rows added from zero: the number of occupied patches among all 256. -/
theorem count (X : FVec Ideal S3x64x256x256 .f32) (c' : Fin 3) (B : Fin 64) :
    Host.reduceAdd (F := Ideal) (rows X) (constant (F := Ideal) S_ .f32 0x00000000#32) reducesTo_S2x3x64_S3x64_d0 h_S_ (ix2 c' B)
      = cnt 0x3B800000#32 X c' B := by
  show Ideal.hostReduceAdd reducesTo_S2x3x64_S3x64_d0 (rows X) (Ideal.ofBits .f32 0x00000000#32) (ix2 c' B) = _
  rw [Ideal.hostReduceAdd_single reducesTo_S2x3x64_S3x64_d0 (by decide), ← rows_cnt 0x3B800000#32 X 2 4 32 (by norm_num) c' B,
    Finset.sum_range]
  refine congrArg (_ + ·) (Finset.sum_congr rfl fun (o : Fin 2) _ => ?_)
  rw [lift0]
  rfl

end Cert.KernelIdeal.Reg2

end
-- ==== Proof.LibMergeLastTwo.lean ====
/-
  Merging the last two axes of a rank-5 array.

  A reshape [a, b, c, d, e] -> [a, b, c, n] with n = d · e keeps the row-major order, so entry (i, j, k, p · e + r) of the
  reshaped array is entry (i, j, k, p, r) of the array (`shapeCast_merge_apply`); the numbers below d · e are the
  p · e + r with p < d and r < e, once each (`sum_merged`); and the indices of the rank-5 array whose first three
  coordinates are (i, j, k) are the (i, j, k, p, r) (`filter_drop`). So the host's sum over the last two axes of the
  array is, entry by entry, the initial value plus the sum over the last axis of the reshaped array
  (`hostReduceAdd_lastTwo`), for any extents and any extended-real entries.
-/
import Idealize.ShloMosaic.Lib.Pipeline.Value
import Idealize.ShloMosaic.Lib.ValueIdx
import Idealize.ShloMosaic.PureOps.Ideal.Laws

noncomputable section

namespace Cert.Lib.MergeLastTwo

open Idealize.ShloMosaic Idealize.ShloMosaic.ValueIdx Finset

variable {a b c d e : ℕ}

/-- `p · e + r` is below `d · e` for `p < d`, `r < e`. -/
theorem merged_lt (p : Fin d) (r : Fin e) : p.val * e + r.val < d * e := by
  have hp := p.isLt
  have hr := r.isLt
  calc p.val * e + r.val < p.val * e + e := by omega
    _ = (p.val + 1) * e := by ring
    _ ≤ d * e := Nat.mul_le_mul_right e hp

/-- The reshaped array at (i, j, k, p · e + r) is the array at (i, j, k, p, r): the same row-major position. -/
theorem shapeCast_merge_apply {α : Type} {n : ℕ} (hn : d * e = n) (x : (⟨5, ![a, b, c, d, e]⟩ : Shape).Idx → α)
    (h : (⟨5, ![a, b, c, d, e]⟩ : Shape).ShapeCasts ⟨4, ![a, b, c, n]⟩)
    (i : Fin a) (j : Fin b) (k : Fin c) (p : Fin d) (r : Fin e) :
    shapeCast ⟨4, ![a, b, c, n]⟩ x h (ix4 i j k ⟨p.val * e + r.val, hn ▸ merged_lt p r⟩) = x (ix5 i j k p r) := by
  subst hn
  exact shapeCast_apply x h _ _ (by
    rw [Shape.rowMajor_val_five, Shape.rowMajor_val_four]
    show (((i.val * b + j.val) * c + k.val) * d + p.val) * e + r.val
      = ((i.val * b + j.val) * c + k.val) * (d * e) + (p.val * e + r.val)
    ring)

/-- A sum over the numbers below `d · e` is the double sum over `p < d`, `r < e` at `p · e + r`. -/
theorem sum_merged {M : Type} [AddCommMonoid M] {n : ℕ} (hn : d * e = n) (f : Fin n → M) :
    ∑ m : Fin n, f m = ∑ p : Fin d, ∑ r : Fin e, f ⟨p.val * e + r.val, hn ▸ merged_lt p r⟩ := by
  subst hn
  rw [← (finProdFinEquiv : Fin d × Fin e ≃ Fin (d * e)).sum_comp f, Fintype.sum_prod_type]
  refine sum_congr rfl fun p _ => sum_congr rfl fun r _ => congrArg f (Fin.ext ?_)
  rw [finProdFinEquiv_apply_val]
  show r.val + e * p.val = p.val * e + r.val
  ring

/-- Dropping the last two coordinates of (i, j, k, p, r) leaves (i, j, k). -/
theorem drop_ix5 (h' : (⟨5, ![a, b, c, d, e]⟩ : Shape).ReducesTo [3, 4] ⟨3, ![a, b, c]⟩)
    (i : Fin a) (j : Fin b) (k : Fin c) (p : Fin d) (r : Fin e) : h'.drop (ix5 i j k p r) = ix3 i j k :=
  funext fun x => Fin.ext (by match x with | ⟨0, _⟩ => rfl | ⟨1, _⟩ => rfl | ⟨2, _⟩ => rfl)

/-- The indices with first coordinates (i, j, k), listed by their last two. -/
def lastTwo (i : Fin a) (j : Fin b) (k : Fin c) : Fin d × Fin e ↪ (⟨5, ![a, b, c, d, e]⟩ : Shape).Idx :=
  ⟨fun pr => ix5 i j k pr.1 pr.2, fun pr pr' h => Prod.ext (congrFun h 3) (congrFun h 4)⟩

/-- The indices that drop to (i, j, k) are exactly those. -/
theorem filter_drop (h' : (⟨5, ![a, b, c, d, e]⟩ : Shape).ReducesTo [3, 4] ⟨3, ![a, b, c]⟩)
    (i : Fin a) (j : Fin b) (k : Fin c) :
    univ.filter (fun I : (⟨5, ![a, b, c, d, e]⟩ : Shape).Idx => h'.drop I = ix3 i j k) = univ.map (lastTwo i j k) := by
  ext I
  simp only [mem_filter, mem_univ, true_and, mem_map, lastTwo, Function.Embedding.coeFn_mk, Prod.exists]
  constructor
  · intro h
    refine ⟨I 3, I 4, ?_⟩
    have e0 : (I 0).val = i.val := congrArg Fin.val (congrFun h 0)
    have e1 : (I 1).val = j.val := congrArg Fin.val (congrFun h 1)
    have e2 : (I 2).val = k.val := congrArg Fin.val (congrFun h 2)
    refine funext fun x => Fin.ext ?_
    match x with
    | ⟨0, _⟩ => exact e0.symm
    | ⟨1, _⟩ => exact e1.symm
    | ⟨2, _⟩ => exact e2.symm
    | ⟨3, _⟩ => rfl
    | ⟨4, _⟩ => rfl
  · rintro ⟨p, r, rfl⟩
    exact drop_ix5 h' i j k p r

/-- THE HOST'S SUM OVER THE LAST TWO AXES, entry by entry: the initial value plus the sum over the merged axis of the
    reshaped array. -/
theorem hostReduceAdd_lastTwo {n : ℕ} (hn : d * e = n)
    (h' : (⟨5, ![a, b, c, d, e]⟩ : Shape).ReducesTo [3, 4] ⟨3, ![a, b, c]⟩)
    (hc : (⟨5, ![a, b, c, d, e]⟩ : Shape).ShapeCasts ⟨4, ![a, b, c, n]⟩)
    (x : (⟨5, ![a, b, c, d, e]⟩ : Shape).Idx → EReal) (init : EReal) (i : Fin a) (j : Fin b) (k : Fin c) :
    Ideal.hostReduceAdd h' x init (ix3 i j k)
      = init + ∑ m : Fin n, shapeCast ⟨4, ![a, b, c, n]⟩ x hc (ix4 i j k m) := by
  unfold Ideal.hostReduceAdd
  rw [filter_drop h' i j k, sum_map, Fintype.sum_prod_type, sum_merged hn]
  refine congrArg (init + ·) (sum_congr rfl fun p _ => sum_congr rfl fun r _ => ?_)
  exact (shapeCast_merge_apply hn x hc i j k p r).symm

end Cert.Lib.MergeLastTwo

end
-- ==== Proof.RefSide.lean ====
/-
  The reference, read: each of its three counts is the count of occupied patches of its argument.

  For each argument the reference sums every patch's box over the two box axes, divides by the box's area, compares
  with the threshold, converts the bit, and sums over the patch axis; the generated stages read all but the two-axis
  box sum at an index, and that one is the sum over the merged axis of the reshaped argument (the general lemma on
  merging the last two axes). Entry by entry the result is the number of occupied patches `cnt`, in the spelling the
  kernel's side arrives at.
-/
import proofs.«111001_j31885837205970_2_alg».proof.Defs
import proofs.«111001_j31885837205970_2_alg».proof.Proof.Gen.ReferenceIdeal.Run
import proofs.«111001_j31885837205970_2_alg».proof.Proof.Gen.ReferenceIdeal.Read
import proofs.«111001_j31885837205970_2_alg».proof.Proof.Spec
import proofs.«111001_j31885837205970_2_alg».proof.Proof.LibMergeLastTwo
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Perc Cert.Lib.MergeLastTwo

/-! ## The first result's count -/

theorem idx_0 (c' : Fin 3) (B : Fin 64) (n : Fin 4096) : idx_main_v6 (ix2 c' B) n = ix3 c' B n :=
  funext fun a => Fin.ext (by match a with | ⟨0, _⟩ => rfl | ⟨1, _⟩ => rfl | ⟨2, _⟩ => rfl)

/-- The reference's sum of its indicators over the patch axis is the count of occupied patches of the first argument
    with its box axes merged: its box sum over two axes is the sum over the merged axis, its quotient by the area the
    product with the reciprocal, its unsigned reading of the comparison's bit the signed reading of the widened bit. -/
theorem count0 (x : FVec Ideal S3x64x4096x4x4 .f32) (hc : S3x64x4096x4x4.ShapeCasts ⟨4, ![3, 64, 4096, 16]⟩)
    (c' : Fin 3) (B : Fin 64) :
    val_main_v6 (F := Ideal) x (ix2 c' B)
      = cnt 0x3D800000#32 (shapeCast ⟨4, ![3, 64, 4096, 16]⟩ x hc) c' B := by
  rw [val_main_v6_apply]
  unfold cnt
  rw [Finset.sum_range]
  show Ideal.ofBits .f32 0x00000000#32 + _ = _
  rw [Ideal.ofBits_zero_f32, zero_add]
  refine Finset.sum_congr rfl fun (n : Fin 4096) _ => ?_
  rw [idx_0]
  unfold q
  rw [dif_pos n.isLt, hit_eq_div _ _ scale16]
  rw [val_main_v5_apply, val_main_v4_apply, val_main_v2_apply, val_main_v1_apply, val_main_v3_apply,
    val_main_cst_0_apply, val_main_cst_1_apply]
  have e : val_main_v0 (F := Ideal) x (ix3 c' B n)
      = ∑ k : Fin 16, shapeCast ⟨4, ![3, 64, 4096, 16]⟩ x hc (ix4 c' B n k) := by
    show Ideal.hostReduceAdd reducesTo_S3x64x4096x4x4_S3x64x4096_d3_4 x (Ideal.ofBits .f32 0x00000000#32) (ix3 c' B n) = _
    rw [hostReduceAdd_lastTwo (d := 4) (e := 4) (n := 16) (by norm_num) reducesTo_S3x64x4096x4x4_S3x64x4096_d3_4 hc, Ideal.ofBits_zero_f32, zero_add]
  rw [e]
  rfl

/-! ## The second result's count -/

theorem idx_1 (c' : Fin 3) (B : Fin 64) (n : Fin 1024) : idx_main_v15 (ix2 c' B) n = ix3 c' B n :=
  funext fun a => Fin.ext (by match a with | ⟨0, _⟩ => rfl | ⟨1, _⟩ => rfl | ⟨2, _⟩ => rfl)

/-- The reference's sum of its indicators over the patch axis is the count of occupied patches of the second argument
    with its box axes merged: its box sum over two axes is the sum over the merged axis, its quotient by the area the
    product with the reciprocal, its unsigned reading of the comparison's bit the signed reading of the widened bit. -/
theorem count1 (x : FVec Ideal S3x64x1024x8x8 .f32) (hc : S3x64x1024x8x8.ShapeCasts ⟨4, ![3, 64, 1024, 64]⟩)
    (c' : Fin 3) (B : Fin 64) :
    val_main_v15 (F := Ideal) x (ix2 c' B)
      = cnt 0x3C800000#32 (shapeCast ⟨4, ![3, 64, 1024, 64]⟩ x hc) c' B := by
  rw [val_main_v15_apply]
  unfold cnt
  rw [Finset.sum_range]
  show Ideal.ofBits .f32 0x00000000#32 + _ = _
  rw [Ideal.ofBits_zero_f32, zero_add]
  refine Finset.sum_congr rfl fun (n : Fin 1024) _ => ?_
  rw [idx_1]
  unfold q
  rw [dif_pos n.isLt, hit_eq_div _ _ scale64]
  rw [val_main_v14_apply, val_main_v13_apply, val_main_v11_apply, val_main_v10_apply, val_main_v12_apply,
    val_main_cst_5_apply, val_main_cst_6_apply]
  have e : val_main_v9 (F := Ideal) x (ix3 c' B n)
      = ∑ k : Fin 64, shapeCast ⟨4, ![3, 64, 1024, 64]⟩ x hc (ix4 c' B n k) := by
    show Ideal.hostReduceAdd reducesTo_S3x64x1024x8x8_S3x64x1024_d3_4 x (Ideal.ofBits .f32 0x00000000#32) (ix3 c' B n) = _
    rw [hostReduceAdd_lastTwo (d := 8) (e := 8) (n := 64) (by norm_num) reducesTo_S3x64x1024x8x8_S3x64x1024_d3_4 hc, Ideal.ofBits_zero_f32, zero_add]
  rw [e]
  rfl

/-! ## The third result's count -/

theorem idx_2 (c' : Fin 3) (B : Fin 64) (n : Fin 256) : idx_main_v24 (ix2 c' B) n = ix3 c' B n :=
  funext fun a => Fin.ext (by match a with | ⟨0, _⟩ => rfl | ⟨1, _⟩ => rfl | ⟨2, _⟩ => rfl)

/-- The reference's sum of its indicators over the patch axis is the count of occupied patches of the third argument
    with its box axes merged: its box sum over two axes is the sum over the merged axis, its quotient by the area the
    product with the reciprocal, its unsigned reading of the comparison's bit the signed reading of the widened bit. -/
theorem count2 (x : FVec Ideal S3x64x256x16x16 .f32) (hc : S3x64x256x16x16.ShapeCasts ⟨4, ![3, 64, 256, 256]⟩)
    (c' : Fin 3) (B : Fin 64) :
    val_main_v24 (F := Ideal) x (ix2 c' B)
      = cnt 0x3B800000#32 (shapeCast ⟨4, ![3, 64, 256, 256]⟩ x hc) c' B := by
  rw [val_main_v24_apply]
  unfold cnt
  rw [Finset.sum_range]
  show Ideal.ofBits .f32 0x00000000#32 + _ = _
  rw [Ideal.ofBits_zero_f32, zero_add]
  refine Finset.sum_congr rfl fun (n : Fin 256) _ => ?_
  rw [idx_2]
  unfold q
  rw [dif_pos n.isLt, hit_eq_div _ _ scale256]
  rw [val_main_v23_apply, val_main_v22_apply, val_main_v20_apply, val_main_v19_apply, val_main_v21_apply,
    val_main_cst_10_apply, val_main_cst_11_apply]
  have e : val_main_v18 (F := Ideal) x (ix3 c' B n)
      = ∑ k : Fin 256, shapeCast ⟨4, ![3, 64, 256, 256]⟩ x hc (ix4 c' B n k) := by
    show Ideal.hostReduceAdd reducesTo_S3x64x256x16x16_S3x64x256_d3_4 x (Ideal.ofBits .f32 0x00000000#32) (ix3 c' B n) = _
    rw [hostReduceAdd_lastTwo (d := 16) (e := 16) (n := 256) (by norm_num) reducesTo_S3x64x256x16x16_S3x64x256_d3_4 hc, Ideal.ofBits_zero_f32, zero_add]
  rw [e]
  rfl

end Cert.ReferenceIdeal.RefValue

end
-- ==== Proof.Bridge.lean ====
/-
  The two programs' results as one function of the arguments.

  The kernel program's result is the host tail (the two rows added from zero, divided by the patch count) of the
  pallas_call's output array, which is `rows` of the argument with its box axes merged; the reference's is the quotient
  of its count by the same patch count. The rows added from zero are the count of occupied patches (`Reg.count`), the
  reference's sum of indicators is the same count (`RefValue.count`), and the divisors are one constant.
-/
import proofs.«111001_j31885837205970_2_alg».proof.Defs
import proofs.«111001_j31885837205970_2_alg».proof.Proof.KWalk
import proofs.«111001_j31885837205970_2_alg».proof.Proof.KReg0
import proofs.«111001_j31885837205970_2_alg».proof.Proof.KReg1
import proofs.«111001_j31885837205970_2_alg».proof.Proof.KReg2
import proofs.«111001_j31885837205970_2_alg».proof.Proof.RefSide
import Idealize.ShloMosaic.Lib.IdealHost

noncomputable section

namespace Cert.KernelIdeal.Bridge

open Cert.KernelIdeal Cert.KernelIdeal.Gen
open Idealize.ShloMosaic Idealize.ShloMosaic.TcCoe Idealize.SL.Sem Idealize.ShloMosaic.ValueIdx
open Cert.Perc

/-! ## The first result -/

/-- What both programs leave in the first result, of the first argument `x`: the mean of the rows of the
    pallas_call's output array over the argument with its box axes merged. -/
def G0 (x : FVec Ideal S3x64x4096x4x4 .f32) : FVec Ideal S3x64 .f32 :=
  Walk.meanOf 0x45800000#32 (Reg0.rows (shapeCast S3x64x4096x16 x shapeCasts_S3x64x4096x4x4_S3x64x4096x16))

/-- The kernel program's first result is `G0` of its argument as launched. -/
theorem kernel_res0 (m : (ℓ : Loc nD τ sig) → Buf (Elt Ideal) ℓ) (ρ : Dev nD → PrngReg) (c : Dev nD) :
    W7 m ρ c (Proc.devRef .tc main_v4) = G0 (m ((c : Thread nD τ).loc main_arg0)) := by
  rw [Walk.res0, Reg0.final (V1 m ρ) c, Walk.in0]
  rfl

/-- The reference's first result, as a function of its argument, is `G0`: the same divisor, and the two counts
    one number entry by entry. -/
theorem ref_res0 (x : FVec Ideal S3x64x4096x4x4 .f32) :
    Cert.ReferenceIdeal.Read.val_main_v8 (F := Ideal) x = G0 x := by
  funext i
  obtain ⟨c', B, rfl⟩ : ∃ (c' : Fin 3) (B : Fin 64), i = ix2 c' B := ⟨i 0, i 1, eq_ix2 i⟩
  unfold G0 Walk.meanOf Cert.ReferenceIdeal.Read.val_main_v8
  rw [hostDivf_apply, hostDivf_apply, Reg0.count, Cert.ReferenceIdeal.RefValue.count0 x shapeCasts_S3x64x4096x4x4_S3x64x4096x16 c' B]
  rfl

/-! ## The second result -/

/-- What both programs leave in the second result, of the second argument `x`: the mean of the rows of the
    pallas_call's output array over the argument with its box axes merged. -/
def G1 (x : FVec Ideal S3x64x1024x8x8 .f32) : FVec Ideal S3x64 .f32 :=
  Walk.meanOf 0x44800000#32 (Reg1.rows (shapeCast S3x64x1024x64 x shapeCasts_S3x64x1024x8x8_S3x64x1024x64))

/-- The kernel program's second result is `G1` of its argument as launched. -/
theorem kernel_res1 (m : (ℓ : Loc nD τ sig) → Buf (Elt Ideal) ℓ) (ρ : Dev nD → PrngReg) (c : Dev nD) :
    W7 m ρ c (Proc.devRef .tc main_v9) = G1 (m ((c : Thread nD τ).loc main_arg1)) := by
  rw [Walk.res1, Reg1.final (V3 m ρ) c, Walk.in1]
  rfl

/-- The reference's second result, as a function of its argument, is `G1`: the same divisor, and the two counts
    one number entry by entry. -/
theorem ref_res1 (x : FVec Ideal S3x64x1024x8x8 .f32) :
    Cert.ReferenceIdeal.Read.val_main_v17 (F := Ideal) x = G1 x := by
  funext i
  obtain ⟨c', B, rfl⟩ : ∃ (c' : Fin 3) (B : Fin 64), i = ix2 c' B := ⟨i 0, i 1, eq_ix2 i⟩
  unfold G1 Walk.meanOf Cert.ReferenceIdeal.Read.val_main_v17
  rw [hostDivf_apply, hostDivf_apply, Reg1.count, Cert.ReferenceIdeal.RefValue.count1 x shapeCasts_S3x64x1024x8x8_S3x64x1024x64 c' B]
  rfl

/-! ## The third result -/

/-- What both programs leave in the third result, of the third argument `x`: the mean of the rows of the
    pallas_call's output array over the argument with its box axes merged. -/
def G2 (x : FVec Ideal S3x64x256x16x16 .f32) : FVec Ideal S3x64 .f32 :=
  Walk.meanOf 0x43800000#32 (Reg2.rows (shapeCast S3x64x256x256 x shapeCasts_S3x64x256x16x16_S3x64x256x256))

/-- The kernel program's third result is `G2` of its argument as launched. -/
theorem kernel_res2 (m : (ℓ : Loc nD τ sig) → Buf (Elt Ideal) ℓ) (ρ : Dev nD → PrngReg) (c : Dev nD) :
    W7 m ρ c (Proc.devRef .tc main_v14) = G2 (m ((c : Thread nD τ).loc main_arg2)) := by
  rw [Walk.res2, Reg2.final (V5 m ρ) c, Walk.in2]
  rfl

/-- The reference's third result, as a function of its argument, is `G2`: the same divisor, and the two counts
    one number entry by entry. -/
theorem ref_res2 (x : FVec Ideal S3x64x256x16x16 .f32) :
    Cert.ReferenceIdeal.Read.val_main_v26 (F := Ideal) x = G2 x := by
  funext i
  obtain ⟨c', B, rfl⟩ : ∃ (c' : Fin 3) (B : Fin 64), i = ix2 c' B := ⟨i 0, i 1, eq_ix2 i⟩
  unfold G2 Walk.meanOf Cert.ReferenceIdeal.Read.val_main_v26
  rw [hostDivf_apply, hostDivf_apply, Reg2.count, Cert.ReferenceIdeal.RefValue.count2 x shapeCasts_S3x64x256x16x16_S3x64x256x256 c' B]
  rfl

end Cert.KernelIdeal.Bridge

end
-- ==== Proof.lean ====
/-
  The proof of `Cert.Claim`: the kernel (three pallas_calls, one per box size, each counting the occupied patches of its
  argument and dividing by the patch count) against its jnp reference, over the extended reals.

  What both programs compute, per argument x : [3, 64, P, b, b]: a patch is occupied when the sum of its box's b · b
  entries, divided by b · b, reaches the threshold; the result at (colour, batch entry) is the number of occupied
  patches divided by P. The reference spells it as written. The kernel merges the two box axes, and per grid point adds
  the occupied patches of a chunk into one of two rows (reset at the first point of each half of the grid); the host adds
  the two rows and divides. Equal because: the product with 1 / (b · b) is the quotient by b · b on every extended real
  (b · b is 16, 64 or 256: the reciprocals are exact); the comparison is the same; the converted bit is 0 or 1 either
  way; and sums of extended reals re-group freely. No finiteness of the inputs is used.

  The modules: Spec (the indicator, the re-grouping of sums), KRun (the kernel program's run with its results kept),
  KWalk (each result as the host tail of its pallas_call's output array), KReg0 – KReg2 (each pallas_call's output
  array as the rows of counts), LibMergeLastTwo (a sum over two axes as the sum over the merged axis), RefSide (the
  reference's counts), Bridge (both results as one function). The ideal pass rewrote nothing, so `preserves` is `True`.
-/
import proofs.«111001_j31885837205970_2_alg».proof.Defs
import proofs.«111001_j31885837205970_2_alg».proof.Proof.Gen.Kernel
import proofs.«111001_j31885837205970_2_alg».proof.Proof.Gen.Kernel.Skeleton
import proofs.«111001_j31885837205970_2_alg».proof.Proof.Gen.Kernel.Launch
import proofs.«111001_j31885837205970_2_alg».proof.Proof.Gen.Kernel.Points
import proofs.«111001_j31885837205970_2_alg».proof.Proof.Gen.Kernel.Frame
import proofs.«111001_j31885837205970_2_alg».proof.Proof.Gen.KernelIdeal
import proofs.«111001_j31885837205970_2_alg».proof.Proof.Gen.KernelIdeal.Skeleton
import proofs.«111001_j31885837205970_2_alg».proof.Proof.Gen.KernelIdeal.Launch
import proofs.«111001_j31885837205970_2_alg».proof.Proof.Gen.KernelIdeal.Points
import proofs.«111001_j31885837205970_2_alg».proof.Proof.Gen.KernelIdeal.Frame
import proofs.«111001_j31885837205970_2_alg».proof.Proof.Gen.ReferenceIdeal
import proofs.«111001_j31885837205970_2_alg».proof.Proof.Gen.ReferenceIdeal.Run
import proofs.«111001_j31885837205970_2_alg».proof.Proof.Gen.ReferenceIdeal.Read
import proofs.«111001_j31885837205970_2_alg».proof.Proof.Gen.Pre_finite_inputs
import proofs.«111001_j31885837205970_2_alg».proof.Proof.KRun
import proofs.«111001_j31885837205970_2_alg».proof.Proof.Bridge
import Idealize.ShloMosaic.Adequacy
import Idealize.ShloMosaic.Init

noncomputable section

namespace Cert.Proof

open Idealize.ShloMosaic Idealize.ShloMosaic.TcCoe Idealize.SL.Sem

/-- The three frames: the kernel's and its idealization's are generated whole; the reference's is its generated run
    with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- At `Ideal` the kernel program ends with each result at `G` of its argument (its run, read through the host tail
    and the pallas_call's rows), and the reference with each result at the same `G` of an argument that agrees. -/
theorem algebraic : Cert.algebraic_KernelIdeal_ReferenceIdeal := by
  intro m ρ m' ρ' _ hagree
  refine ⟨fun c => Cert.KernelIdeal.Bridge.G0 (m ((c.tc : Thread Cert.KernelIdeal.nD Cert.KernelIdeal.τ).loc Cert.KernelIdeal.main_arg0)),
    fun c => Cert.KernelIdeal.Bridge.G1 (m ((c.tc : Thread Cert.KernelIdeal.nD Cert.KernelIdeal.τ).loc Cert.KernelIdeal.main_arg1)),
    fun c => Cert.KernelIdeal.Bridge.G2 (m ((c.tc : Thread Cert.KernelIdeal.nD Cert.KernelIdeal.τ).loc Cert.KernelIdeal.main_arg2)), ?_, ?_⟩
  · exact (θ_run Cert.KernelIdeal.defs _ _).mono (fun r h c =>
      ⟨(h c).1.trans (Cert.KernelIdeal.Bridge.kernel_res0 m ρ c),
       (h c).2.1.trans (Cert.KernelIdeal.Bridge.kernel_res1 m ρ c),
       (h c).2.2.1.trans (Cert.KernelIdeal.Bridge.kernel_res2 m ρ c),
       (h c).2.2.2⟩) (Cert.KernelIdeal.Run.results (F := Ideal) m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v8_eq, Cert.KernelIdeal.Bridge.ref_res0, (hagree c).1]
    · rw [(h c).2.1, Cert.ReferenceIdeal.Read.val_main_v17_eq, Cert.KernelIdeal.Bridge.ref_res1, (hagree c).2.1]
    · rw [(h c).2.2.1, Cert.ReferenceIdeal.Read.val_main_v26_eq, Cert.KernelIdeal.Bridge.ref_res2, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
